-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : IVec S8192 32) (main_arg1 : FVec F S8192 .f32) (main_arg2 : IVec S8192 32) : IVec S_ 1 :=
  let main_v0 : FVec F S8192 .f32 := Host.absf main_arg1
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  main_v3
-- ==== Kernel.lean ====
abbrev S8192 : Shape := ⟨1, ![8192]⟩
abbrev S8192x1 : Shape := ⟨2, ![8192, 1]⟩
abbrev S1x8192 : Shape := ⟨2, ![1, 8192]⟩
abbrev S64x128 : Shape := ⟨2, ![64, 128]⟩
abbrev S1024x1 : Shape := ⟨2, ![1024, 1]⟩
abbrev S1x1024 : Shape := ⟨2, ![1, 1024]⟩
abbrev S8x128 : Shape := ⟨2, ![8, 128]⟩
abbrev S1024x1024 : Shape := ⟨2, ![1024, 1024]⟩
abbrev S1024 : Shape := ⟨1, ![1024]⟩
abbrev S1 : Shape := ⟨1, ![1]⟩
abbrev S1x1 : Shape := ⟨2, ![1, 1]⟩
abbrev S_ : Shape := ⟨0, ![]⟩

abbrev nBuf : Space → Nat
  | .hbm => 16
  | .vmem => 16
  | .smem => 0
  | _ => 0

abbrev bufTy : (tb : Table) → Fin (tcTables nBuf tb) → BufTy
  | .hbm, ⟨0, _⟩ => ⟨S8192, .i32⟩
  | .hbm, ⟨1, _⟩ => ⟨S8192, .f32⟩
  | .hbm, ⟨2, _⟩ => ⟨S8192, .i32⟩
  | .hbm, ⟨3, _⟩ => ⟨S8192x1, .f32⟩
  | .hbm, ⟨4, _⟩ => ⟨S1x8192, .f32⟩
  | .hbm, ⟨5, _⟩ => ⟨S8192x1, .i32⟩
  | .hbm, ⟨6, _⟩ => ⟨S1x8192, .i32⟩
  | .hbm, ⟨7, _⟩ => ⟨S8192x1, .i32⟩
  | .hbm, ⟨8, _⟩ => ⟨S1x8192, .i32⟩
  | .hbm, ⟨9, _⟩ => ⟨S64x128, .f32⟩
  | .hbm, ⟨10, _⟩ => ⟨S64x128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let arg1 : BitVec 32 := BitVec.ofNat 32 (i 1).val
  let v3 : BitVec 1 := Scalar.cmpi .sle arg0 arg1
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S8192_S8192x1 : S8192.ShapeCasts S8192x1
  shapeCasts_S8192_S1x8192 : S8192.ShapeCasts S1x8192
  inb_S8x128_S8x128_0_0 : ∀ a, (![0, 0] : Fin 2 → Nat) a + S8x128.size a ≤ S8x128.size a
  h_S8x128 : 0 < S8x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  natLt_1_32 : 1 < 32
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  iota_S8x128_d0_w32 : S8x128.Iotas .tc 32 [0]
  iota_S8x128_d1_w32 : S8x128.Iotas .tc 32 [1]
  shapeCasts_S8x128_S8x128 : S8x128.ShapeCasts S8x128
  shapeCasts_S1x1_S1x1 : S1x1.ShapeCasts S1x1
  broadcasts_S1x1_S8x128 : S1x1.Broadcasts S8x128
  reducesTo_S64x128_S_d0_1 : S64x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .i32 = 32 ∨ (Rect.block (s := S1x8192) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S64x128.size a
  hwx0_6 : ∀ i : grid0.Coords, EltTy.bits .f32 = 32 ∨ (Rect.block (s := S64x128) S8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S64x128.size a
  hwx0_7 : ∀ i : grid0.Coords, EltTy.bits .f32 = 32 ∨ (Rect.block (s := S64x128) S8x128.size (cc0_transform_7 i) (hinb0_7 i)).WholeWords (EltTy.packing .f32)

variable [Facts₀]

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond1 i == 1#1) && !(k0_cond2 i == 1#1) | 7 => fun i => !(k0_cond1 i == 1#1) && !(k0_cond2 i == 1#1) | ⟨_ + 8, h⟩ => absurd h (Nat.not_lt.2 (Nat.le_add_left _ _))

class Facts : Prop extends Facts₀ where

variable [Facts]
-- ==== ReferenceIdeal.lean ====
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192, .f32⟩
  | .hbm, ⟨2, _⟩ => ⟨S8192, .i32⟩
  | .hbm, ⟨3, _⟩ => ⟨S8192, .i32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x1, .i32⟩
  | .hbm, ⟨10, _⟩ => ⟨S1x8192, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8192x1, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8192x8192, .i1⟩
  | .hbm, ⟨20, _⟩ => ⟨S8192x8192, .i1⟩
  | .hbm, ⟨21, _⟩ => ⟨S8192x1, .f32⟩
  | .hbm, ⟨22, _⟩ => ⟨S1x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x1, .i32⟩
  | .hbm, ⟨27, _⟩ => ⟨S_, .i32⟩
  | .hbm, ⟨28, _⟩ => ⟨S8192x1, .i32⟩
  | .hbm, ⟨29, _⟩ => ⟨S8192x1, .i1⟩
  | .hbm, ⟨30, _⟩ => ⟨S8192x1, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S_, .f32⟩
  | .hbm, ⟨51, _⟩ => ⟨S_, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_c : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_0 : Ref sig .tc := ⟨.hbm, 43, rfl⟩
abbrev main_v38 : Ref sig .tc := ⟨.hbm, 44, rfl⟩
abbrev main_cst_1 : Ref sig .tc := ⟨.hbm, 45, rfl⟩
abbrev main_call0_v0 : Ref sig .tc := ⟨.hbm, 46, rfl⟩
abbrev main_call0_v1 : Ref sig .tc := ⟨.hbm, 47, rfl⟩
abbrev main_v39 : Ref sig .tc := ⟨.hbm, 48, rfl⟩
abbrev main_cst_2 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x1 : S_.BroadcastsInDim S8192x1 (![] : Fin 0 → Fin S8192x1.rank)
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts₀]

class Facts : Prop extends Facts₀ where

variable [Facts]
-- ==== Proof.K.Cases.lean ====
/-
  The kernel body, run once per control case.  The body has two conditionals on the grid point (i, j):
  "j = 0" (reset both output tiles to zero) and "i ≤ j" (add this block's partial sum and partial count into
  entry (0,0) of the tiles).  Four assignments of the two conditions, four runs: each says which stores the
  body leaves in the two output tiles, as a list of pieces found by running the body symbolically.
-/
import proofs.«172198_j20495583936604_2_alg».proof.Proof.Gen.Kernel.Frame
import proofs.«172198_j20495583936604_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Reset and accumulate (j = 0 and i ≤ j): both tiles are overwritten with zero, then read back and overwritten
    with zero plus the block's partial. The tiles' previous contents are never used. -/
noncomputable def runA (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S8x128 .f32) (harg8 : arg8.IsWhole) (arg9 : Memref sig .tc .vmem S8x128 .f32) (harg9 : arg9.IsWhole)
    (hc1 : k0_cond1 i = 1#1) (hc2 : k0_cond2 i = 1#1) (x0 : Vec F S1024x1 .f32) (x1 : Vec F S1x1024 .f32) (x2 : Vec F S1024x1 .i32) (x3 : Vec F S1x1024 .i32) (x4 : Vec F S1024x1 .i32) (x5 : Vec F S1x1024 .i32) :
    { L : List (View.Piece (Elt F) S8x128 .f32) × List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc0__pairwise_bce_kernel i arg2 harg2 arg3 harg3 arg4 harg4 arg5 harg5 arg6 harg6 arg7 harg7 arg8 harg8 arg9 harg9) K } := by
  refine ⟨(?_, ?_), fun E K => ?run⟩
  case run =>
    simp only [cc0__pairwise_bce_kernel_eq_skeleton]; unfold cc0__pairwise_bce_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexists _; iexact H7

set_option maxHeartbeats 1000000 in
/-- Reset only (j = 0 and i > j): both tiles are overwritten with zero; no input is read. -/
noncomputable def runB (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S8x128 .f32) (harg8 : arg8.IsWhole) (arg9 : Memref sig .tc .vmem S8x128 .f32) (harg9 : arg9.IsWhole)
    (hc1 : k0_cond1 i = 1#1) (hc2 : ¬k0_cond2 i = 1#1) :
    { L : List (View.Piece (Elt F) S8x128 .f32) × List (View.Piece (Elt F) S8x128 .f32) //
      ∀ (E : Set ℕ) (K : PUnit → sProp 𝕄),
        iprop((∃ d, owns (c : Thread nD τ) arg8 fullShare d) ∗ (∃ d, owns (c : Thread nD τ) arg9 fullShare d)
            ∗ (iprop((∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc0__pairwise_bce_kernel i arg2 harg2 arg3 harg3 arg4 harg4 arg5 harg5 arg6 harg6 arg7 harg7 arg8 harg8 arg9 harg9) K } := by
  refine ⟨(?_, ?_), fun E K => ?run⟩
  case run =>
    simp only [cc0__pairwise_bce_kernel_eq_skeleton]; unfold cc0__pairwise_bce_kernel_skel
    simp only [k0_part1_eq_skeleton, k0_part2_eq_skeleton]; unfold k0_part1_skel k0_part2_skel
    unfold owns
    iintro ⟨⟨%d6, %f6, -, H6⟩, ⟨%d7, %f7, -, H7⟩, Hk⟩
    sl_exec (disch := first | exact hc1 | exact hc2)
    sl_step
    iapply Hk
    isplitl [H6]
    · iexists _; iexact H6
    iexists _; iexact H7

set_option maxHeartbeats 1000000 in
/-- Accumulate (j ≠ 0 and i ≤ j): each tile, holding `xo6` / `xo7`, is read and overwritten with its contents plus
    the block's partial. -/
noncomputable def runC (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S8x128 .f32) (harg8 : arg8.IsWhole) (arg9 : Memref sig .tc .vmem S8x128 .f32) (harg9 : arg9.IsWhole)
    (hc1 : ¬k0_cond1 i = 1#1) (hc2 : k0_cond2 i = 1#1) (x0 : Vec F S1024x1 .f32) (x1 : Vec F S1x1024 .f32) (x2 : Vec F S1024x1 .i32) (x3 : Vec F S1x1024 .i32) (x4 : Vec F S1024x1 .i32) (x5 : Vec F S1x1024 .i32) (xo6 xo7 : Vec F S8x128 .f32) :
    { L : List (View.Piece (Elt F) S8x128 .f32) × List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc0__pairwise_bce_kernel i arg2 harg2 arg3 harg3 arg4 harg4 arg5 harg5 arg6 harg6 arg7 harg7 arg8 harg8 arg9 harg9) K } := by
  refine ⟨(?_, ?_), fun E K => ?run⟩
  case run =>
    simp only [cc0__pairwise_bce_kernel_eq_skeleton]; unfold cc0__pairwise_bce_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexists _; iexact H7

/-- Neither (j ≠ 0 and i > j): the body touches no memory. -/
theorem runD (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S8x128 .f32) (harg8 : arg8.IsWhole) (arg9 : Memref sig .tc .vmem S8x128 .f32) (harg9 : arg9.IsWhole)
    (hc1 : ¬k0_cond1 i = 1#1) (hc2 : ¬k0_cond2 i = 1#1) (E : Set ℕ) (K : PUnit → sProp 𝕄) :
    K ⟨⟩ ⊢ wp frame (wpE (defs₀ (F := F)) Variants.none c none) E (cc0__pairwise_bce_kernel i arg2 harg2 arg3 harg3 arg4 harg4 arg5 harg5 arg6 harg6 arg7 harg7 arg8 harg8 arg9 harg9) K := by
  simp only [cc0__pairwise_bce_kernel_eq_skeleton]; unfold cc0__pairwise_bce_kernel_skel
  iintro Hk
  sl_exec (disch := first | exact hc1 | exact hc2)
  sl_step
  iexact Hk

end Cert.Kernel.Body

end
-- ==== Proof.K.Data.lean ====
/-
  The proof data of the pipeline: what the two output tiles hold after the body at each grid point.
  Point t = 8·i + j.  Row i starts (j = 0) by zeroing the tiles; at every j ≥ i the block's partial sum and count
  are added into them; at 0 < j < i nothing is touched, so the tiles keep what the point before left.  The tiles are
  written back once per row, after j = 7.  So the contents after point t are defined by recursion on t.
-/
import proofs.«172198_j20495583936604_2_alg».proof.Proof.K.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions and the idle points, decided over the 64 grid points -/

/-- "j = 0" holds exactly at the first point of each row. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- "i ≤ j" in terms of the point's number. -/
theorem hcond2 : ∀ t : Fin cfg0.N, k0_cond2 (grid0.coords t) = 1#1 ↔ t.val / 8 ≤ t.val % 8 :=
  (by decide +kernel : ∀ t : Fin grid0.N, k0_cond2 (grid0.coords t) = 1#1 ↔ t.val / 8 ≤ t.val % 8)
/-- The output tiles are untouched exactly where neither condition holds. -/
theorem hidle6 : ∀ t : Fin cfg0.N, cfg0.idle 6 (cfg0.grid.coords t) = true ↔ (¬t.val % 8 = 0 ∧ ¬t.val / 8 ≤ t.val % 8) :=
  (by decide +kernel : ∀ t : Fin grid0.N, idle0 6 (grid0.coords t) = true ↔ (¬t.val % 8 = 0 ∧ ¬t.val / 8 ≤ t.val % 8))
theorem hidle7 : ∀ t : Fin cfg0.N, cfg0.idle 7 (cfg0.grid.coords t) = true ↔ (¬t.val % 8 = 0 ∧ ¬t.val / 8 ≤ t.val % 8) :=
  (by decide +kernel : ∀ t : Fin grid0.N, idle0 7 (grid0.coords t) = true ↔ (¬t.val % 8 = 0 ∧ ¬t.val / 8 ≤ t.val % 8))

/-! ## The staging memrefs at a point, and what each case leaves in the tiles -/

abbrev ms0 (t : Fin cfg0.N) : Memref sig .tc .vmem S1024x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S8x128 .f32 := win0_7.stage (cfg0.slots t 7)
abbrev hs7 (t : Fin cfg0.N) : (ms7 t).IsWhole := hstage0_7 ((cfg0.slots t 7).cast nbuf0_7)

/-- A staging buffer of an output tile, through which its contents are stated (the choice does not matter). -/
abbrev VO : View sig .tc .vmem S8x128 .f32 := (Memref.whole cc0_stg6_0 : Memref sig .tc .vmem S8x128 .f32).view

/-- The pieces the reset-and-accumulate run leaves, at point `t`. -/
abbrev piecesA (c : Dev nD) (t : Fin cfg0.N) (hc1 : k0_cond1 (grid0.coords t) = 1#1) (hc2 : k0_cond2 (grid0.coords t) = 1#1) :=
  (runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) hc1 hc2 (iblk m c 0 t) (iblk m c 1 t) (iblk m c 2 t) (iblk m c 3 t) (iblk m c 4 t) (iblk m c 5 t)).1
/-- The pieces the reset-only run leaves. -/
abbrev piecesB (c : Dev nD) (t : Fin cfg0.N) (hc1 : k0_cond1 (grid0.coords t) = 1#1) (hc2 : ¬k0_cond2 (grid0.coords t) = 1#1) :=
  (runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) hc1 hc2).1
/-- The pieces the accumulate run leaves over tiles holding `xo`. -/
abbrev piecesC (c : Dev nD) (t : Fin cfg0.N) (hc1 : ¬k0_cond1 (grid0.coords t) = 1#1) (hc2 : k0_cond2 (grid0.coords t) = 1#1)
    (xo : Vec F S8x128 .f32 × Vec F S8x128 .f32) :=
  (runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) hc1 hc2 (iblk m c 0 t) (iblk m c 1 t) (iblk m c 2 t) (iblk m c 3 t) (iblk m c 4 t) (iblk m c 5 t) xo.1 xo.2).1

/-- The two tiles after a run: its pieces read back. -/
def tilesOf (L : List (View.Piece (Elt F) S8x128 .f32) × List (View.Piece (Elt F) S8x128 .f32)) : Vec F S8x128 .f32 × Vec F S8x128 .f32 :=
  (VO.read (Elt F) (VO.writes (Elt F) VO.junk L.1), VO.read (Elt F) (VO.writes (Elt F) VO.junk L.2))

/-- Each run's pieces tile the whole tile (every store is of the whole block), so they cover it. -/
theorem coverA6 (c : Dev nD) (t : Fin cfg0.N) (hc1) (hc2) (y : S8x128.Idx) : ∃ pc ∈ (piecesA m c t hc1 hc2).1, y ∈ pc.1.set :=
  View.cover_of_tiledL (piecesA m c t hc1 hc2).1 S8x128.size (by sl_kernel_rfl) y
theorem coverA7 (c : Dev nD) (t : Fin cfg0.N) (hc1) (hc2) (y : S8x128.Idx) : ∃ pc ∈ (piecesA m c t hc1 hc2).2, y ∈ pc.1.set :=
  View.cover_of_tiledL (piecesA m c t hc1 hc2).2 S8x128.size (by sl_kernel_rfl) y
theorem coverB6 (c : Dev nD) (t : Fin cfg0.N) (hc1) (hc2) (y : S8x128.Idx) : ∃ pc ∈ (piecesB (F := F) c t hc1 hc2).1, y ∈ pc.1.set :=
  View.cover_of_tiledL (piecesB (F := F) c t hc1 hc2).1 S8x128.size (by sl_kernel_rfl) y
theorem coverB7 (c : Dev nD) (t : Fin cfg0.N) (hc1) (hc2) (y : S8x128.Idx) : ∃ pc ∈ (piecesB (F := F) c t hc1 hc2).2, y ∈ pc.1.set :=
  View.cover_of_tiledL (piecesB (F := F) c t hc1 hc2).2 S8x128.size (by sl_kernel_rfl) y
theorem coverC6 (c : Dev nD) (t : Fin cfg0.N) (hc1) (hc2) (xo) (y : S8x128.Idx) : ∃ pc ∈ (piecesC m c t hc1 hc2 xo).1, y ∈ pc.1.set :=
  View.cover_of_tiledL (piecesC m c t hc1 hc2 xo).1 S8x128.size (by sl_kernel_rfl) y
theorem coverC7 (c : Dev nD) (t : Fin cfg0.N) (hc1) (hc2) (xo) (y : S8x128.Idx) : ∃ pc ∈ (piecesC m c t hc1 hc2 xo).2, y ∈ pc.1.set :=
  View.cover_of_tiledL (piecesC m c t hc1 hc2 xo).2 S8x128.size (by sl_kernel_rfl) y

/-! ## The tiles after each point -/

/-- THE ACCUMULATION: the two tiles after the body at point `n`. Point 0 resets and accumulates; a later first point of
    a row (n ≡ 0 mod 8, where i > 0 = j) only resets; a point with i ≤ j accumulates over what the point before left;
    any other point leaves what the point before left. -/
def outsAt (c : Dev nD) : (n : ℕ) → n < cfg0.N → Vec F S8x128 .f32 × Vec F S8x128 .f32
  | 0, hn => tilesOf (piecesA m c ⟨0, hn⟩ ((hcond1 ⟨0, hn⟩).mpr (Nat.zero_mod _)) ((hcond2 ⟨0, hn⟩).mpr (by show 0 / 8 ≤ 0 % 8; decide)))
  | n + 1, hn =>
    if h1 : (n + 1) % 8 = 0 then
      tilesOf (piecesB c ⟨n + 1, hn⟩ ((hcond1 ⟨n + 1, hn⟩).mpr h1)
        (fun h => by have h2 := (hcond2 ⟨n + 1, hn⟩).mp h; dsimp only at h2; omega))
    else if h2 : (n + 1) / 8 ≤ (n + 1) % 8 then
      tilesOf (piecesC m c ⟨n + 1, hn⟩ (fun h => h1 ((hcond1 ⟨n + 1, hn⟩).mp h)) ((hcond2 ⟨n + 1, hn⟩).mpr h2)
        (outsAt c n (Nat.lt_of_succ_lt hn)))
    else outsAt c n (Nat.lt_of_succ_lt hn)

theorem outsAt_A (c : Dev nD) (t : Fin cfg0.N) (h0 : t.val = 0) (hc1) (hc2) :
    outsAt m c t.val t.isLt = tilesOf (piecesA m c t hc1 hc2) := by
  obtain ⟨n, hn⟩ := t
  cases n with
  | zero => rfl
  | succ n => exact absurd h0 (Nat.succ_ne_zero n)

theorem outsAt_B (c : Dev nD) (t : Fin cfg0.N) (h1 : t.val % 8 = 0) (h0 : t.val ≠ 0) (hc1) (hc2) :
    outsAt m c t.val t.isLt = tilesOf (piecesB (F := F) c t hc1 hc2) := by
  obtain ⟨n, hn⟩ := t
  cases n with
  | zero => exact absurd rfl h0
  | succ n => exact (dif_pos h1).trans rfl

theorem outsAt_C (c : Dev nD) (t : Fin cfg0.N) (h1 : ¬t.val % 8 = 0) (h2 : t.val / 8 ≤ t.val % 8) (hc1) (hc2) :
    outsAt m c t.val t.isLt
      = tilesOf (piecesC m c t hc1 hc2 (outsAt m c (t.val - 1) (Nat.lt_of_le_of_lt (Nat.sub_le _ _) t.isLt))) := by
  obtain ⟨n, hn⟩ := t
  cases n with
  | zero => exact absurd (Nat.zero_mod _) h1
  | succ n => exact (dif_neg h1).trans ((dif_pos h2).trans rfl)

theorem outsAt_D (c : Dev nD) (t : Fin cfg0.N) (h1 : ¬t.val % 8 = 0) (h2 : ¬t.val / 8 ≤ t.val % 8) :
    outsAt m c t.val t.isLt = outsAt m c (t.val - 1) (Nat.lt_of_le_of_lt (Nat.sub_le _ _) t.isLt) := by
  obtain ⟨n, hn⟩ := t
  cases n with
  | zero => exact absurd (Nat.zero_mod _) h1
  | succ n => exact (dif_neg h1).trans ((dif_neg h2).trans rfl)

/-! ## The proof data -/

/-- The arrays as the region finds them; after the body each input's buffer still at its block, the tiles at
    `outsAt`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]
theorem after7 (c : Dev nD) (t : Fin cfg0.N) : (dats m 0 c).after 7 t = (outsAt m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- At the first point of a row a tile's buffer is fresh (the first point of all, or just written back): anything. -/
theorem before_reset (c : Dev nD) (w : Fin cfg0.W) (hw : (cfg0.win w).isOut = true)
    (hfl : ∀ t : Fin cfg0.N, (cfg0.win w).flush t = true ↔ t.val % 8 = 7)
    (t : Fin cfg0.N) (h1 : t.val % 8 = 0) (d) : (dats m 0 c).before w t d = d := by
  have hN : t.val < 64 := lt_of_lt_of_eq t.isLt (show cfg0.N = 64 from N_0)
  refine Dat.before_out_reset _ w hw t ?_ d
  by_cases h0 : t.val = 0
  · exact .inl h0
  · exact .inr ⟨h0, (hfl _).mpr (by dsimp only; omega)⟩

/-- At any other point a tile's buffer holds what the body left at the point before — which, where that point did not
    touch it, is what the body found there. -/
theorem before_step (c : Dev nD) (w : Fin cfg0.W) (hw : (cfg0.win w).isOut = true)
    (hclip : ∀ (i : cfg0.grid.Coords) a, (cfg0.win w).clip i a = none)
    (hfl : ∀ t : Fin cfg0.N, (cfg0.win w).flush t = true ↔ t.val % 8 = 7)
    (t : Fin cfg0.N) (h1 : ¬t.val % 8 = 0) (d) :
    (dats m 0 c).before w t d
      = match cfg0.idle w (cfg0.grid.coords ⟨t.val - 1, Nat.lt_of_le_of_lt (Nat.sub_le _ _) t.isLt⟩) with
        | true => (dats m 0 c).before w ⟨t.val - 1, Nat.lt_of_le_of_lt (Nat.sub_le _ _) t.isLt⟩ d
        | false => (dats m 0 c).after w ⟨t.val - 1, Nat.lt_of_le_of_lt (Nat.sub_le _ _) t.isLt⟩ := by
  have ht : t.val ≠ 0 := fun h => h1 (by rw [h])
  have hf : (cfg0.win w).flush ⟨t.val - 1, Nat.lt_of_le_of_lt (Nat.sub_le _ _) t.isLt⟩ = false :=
    Bool.eq_false_iff.mpr fun h => by have := (hfl _).mp h; dsimp only at this; omega
  rw [Dat.before_of_pos _ w t ht ((cfg0.win w).fetch_out hw t) d, hf, if_neg Bool.false_ne_true]
  unfold Dat.left
  cases cfg0.idle w (cfg0.grid.coords ⟨t.val - 1, Nat.lt_of_le_of_lt (Nat.sub_le _ _) t.isLt⟩)
  · dsimp only
    unfold Dat.kept
    rw [Pipeline.fill_of_clip_none (cfg := cfg0) w _ (hclip _) d ((dats m 0 c).after w _), Window.fill_cut]
  · rfl

end Cert.Kernel.Body

end
-- ==== Proof.K.Oblig.lean ====
/-
  The body obligation and the frame run.  At each point the tiles' buffers are found at what the recursion left at
  the point before (or fresh, at the first point of a row), the case the point is in is read off its number, and the
  matching run of the body applies.  Where the body touches nothing it hands the tiles back as it was given them.
-/
import proofs.«172198_j20495583936604_2_alg».proof.Proof.K.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a point that is not the first of its row, tile 6's buffer holds what the recursion left at the point before:
    that point either stored the tile (then this is its `after`) or did not touch it (then, by induction, it held what
    the recursion had left one point earlier, which is also the recursion's value there). -/
theorem before6_kept (c : Dev nD) : ∀ (n : ℕ) (t : Fin cfg0.N), t.val = n → ¬t.val % 8 = 0 → ∀ d,
    (dats m 0 c).before 6 t d = (outsAt m c (t.val - 1) (Nat.lt_of_le_of_lt (Nat.sub_le _ _) t.isLt)).1 := by
  intro n
  induction n using Nat.strong_induction_on with
  | _ n ih =>
    intro t htn h8 d
    have hN : t.val < 64 := lt_of_lt_of_eq t.isLt (show cfg0.N = 64 from N_0)
    have key := before_step m c 6 rfl (fun _ _ => rfl) flush0_6 t h8 d
    by_cases hi : ¬(t.val - 1) % 8 = 0 ∧ ¬(t.val - 1) / 8 ≤ (t.val - 1) % 8
    · have hidle : cfg0.idle 6 (cfg0.grid.coords ⟨t.val - 1, Nat.lt_of_le_of_lt (Nat.sub_le _ _) t.isLt⟩) = true := (hidle6 ⟨t.val - 1, Nat.lt_of_le_of_lt (Nat.sub_le _ _) t.isLt⟩).mpr hi
      rw [hidle] at key
      rw [key]
      have h' := ih (t.val - 1) (by omega) ⟨t.val - 1, Nat.lt_of_le_of_lt (Nat.sub_le _ _) t.isLt⟩ rfl hi.1 d
      rw [h']
      have hD := outsAt_D m c ⟨t.val - 1, Nat.lt_of_le_of_lt (Nat.sub_le _ _) t.isLt⟩ hi.1 hi.2
      exact (congrArg Prod.fst hD).symm
    · have hidle : cfg0.idle 6 (cfg0.grid.coords ⟨t.val - 1, Nat.lt_of_le_of_lt (Nat.sub_le _ _) t.isLt⟩) = false :=
        Bool.eq_false_iff.mpr fun h => hi ((hidle6 ⟨t.val - 1, Nat.lt_of_le_of_lt (Nat.sub_le _ _) t.isLt⟩).mp h)
      rw [hidle] at key
      rw [key]
      exact after6 m c ⟨t.val - 1, Nat.lt_of_le_of_lt (Nat.sub_le _ _) t.isLt⟩

/-- At a point that is not the first of its row, tile 7's buffer holds what the recursion left at the point before:
    that point either stored the tile (then this is its `after`) or did not touch it (then, by induction, it held what
    the recursion had left one point earlier, which is also the recursion's value there). -/
theorem before7_kept (c : Dev nD) : ∀ (n : ℕ) (t : Fin cfg0.N), t.val = n → ¬t.val % 8 = 0 → ∀ d,
    (dats m 0 c).before 7 t d = (outsAt m c (t.val - 1) (Nat.lt_of_le_of_lt (Nat.sub_le _ _) t.isLt)).2 := by
  intro n
  induction n using Nat.strong_induction_on with
  | _ n ih =>
    intro t htn h8 d
    have hN : t.val < 64 := lt_of_lt_of_eq t.isLt (show cfg0.N = 64 from N_0)
    have key := before_step m c 7 rfl (fun _ _ => rfl) flush0_7 t h8 d
    by_cases hi : ¬(t.val - 1) % 8 = 0 ∧ ¬(t.val - 1) / 8 ≤ (t.val - 1) % 8
    · have hidle : cfg0.idle 7 (cfg0.grid.coords ⟨t.val - 1, Nat.lt_of_le_of_lt (Nat.sub_le _ _) t.isLt⟩) = true := (hidle7 ⟨t.val - 1, Nat.lt_of_le_of_lt (Nat.sub_le _ _) t.isLt⟩).mpr hi
      rw [hidle] at key
      rw [key]
      have h' := ih (t.val - 1) (by omega) ⟨t.val - 1, Nat.lt_of_le_of_lt (Nat.sub_le _ _) t.isLt⟩ rfl hi.1 d
      rw [h']
      have hD := outsAt_D m c ⟨t.val - 1, Nat.lt_of_le_of_lt (Nat.sub_le _ _) t.isLt⟩ hi.1 hi.2
      exact (congrArg Prod.snd hD).symm
    · have hidle : cfg0.idle 7 (cfg0.grid.coords ⟨t.val - 1, Nat.lt_of_le_of_lt (Nat.sub_le _ _) t.isLt⟩) = false :=
        Bool.eq_false_iff.mpr fun h => hi ((hidle7 ⟨t.val - 1, Nat.lt_of_le_of_lt (Nat.sub_le _ _) t.isLt⟩).mp h)
      rw [hidle] at key
      rw [key]
      exact after7 m c ⟨t.val - 1, Nat.lt_of_le_of_lt (Nat.sub_le _ _) t.isLt⟩

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d)))

/-- and what it returns: every input's buffer at its block; each tile at the recursion's value, or, where the point
    does not touch it, at what the body found. -/
def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ (match cfg0.idle 6 (cfg0.grid.coords t) with
      | true =>
        match (cfg0.win 6).flush t with
        | false => iprop(∃ d, owns (c : Thread nD τ) ((cfg0.win 6).stage (cfg0.slots t 6)) fullShare ((dats m 0 c).before 6 t d))
        | true => owns (c : Thread nD τ) ((cfg0.win 6).stage (cfg0.slots t 6)) fullShare ((dats m 0 c).after 6 t)
      | false => owns (c : Thread nD τ) ((cfg0.win 6).stage (cfg0.slots t 6)) fullShare ((dats m 0 c).after 6 t))
    ∗ (match cfg0.idle 7 (cfg0.grid.coords t) with
      | true =>
        match (cfg0.win 7).flush t with
        | false => iprop(∃ d, owns (c : Thread nD τ) ((cfg0.win 7).stage (cfg0.slots t 7)) fullShare ((dats m 0 c).before 7 t d))
        | true => owns (c : Thread nD τ) ((cfg0.win 7).stage (cfg0.slots t 7)) fullShare ((dats m 0 c).after 7 t)
      | false => owns (c : Thread nD τ) ((cfg0.win 7).stage (cfg0.slots t 7)) fullShare ((dats m 0 c).after 7 t)))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5]
  have hN : t.val < 64 := lt_of_lt_of_eq t.isLt (show cfg0.N = 64 from N_0)
  by_cases h1 : t.val % 8 = 0
  · have hi6 : idle0 6 (grid0.coords t) = false := Bool.eq_false_iff.mpr fun h => ((hidle6 t).mp h).1 h1
    have hi7 : idle0 7 (grid0.coords t) = false := Bool.eq_false_iff.mpr fun h => ((hidle7 t).mp h).1 h1
    rw [hi6]; try rw [hi7]
    dsimp only
    have hc1 : k0_cond1 (grid0.coords t) = 1#1 := (hcond1 t).mpr h1
    by_cases h0 : t.val = 0
    · -- reset and accumulate
      have hc2 : k0_cond2 (grid0.coords t) = 1#1 := (hcond2 t).mpr (by rw [h0])
      rw [after6, after7, outsAt_A m c t h0 hc1 hc2]
      dsimp only [tilesOf]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) _ _ _ _ _ _ _ _ _ _ _ _ _ _ _ _ hc1 hc2 (iblk m c 0 t) (iblk m c 1 t) (iblk m c 2 t) (iblk m c 3 t) (iblk m c 4 t) (iblk m c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverA6 m c t hc1 hc2)
      unfold owns; iexists _; isplitr
      swap; · iexact H7
      ipureintro; exact View.read_writes_of_cover _ _ _ _ _ (coverA7 m c t hc1 hc2)
    · -- reset only
      have hc2 : ¬k0_cond2 (grid0.coords t) = 1#1 := fun h => by have := (hcond2 t).mp h; omega
      rw [after6, after7, outsAt_B m c t h1 h0 hc1 hc2]
      dsimp only [tilesOf]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c (grid0.coords t) _ _ _ _ _ _ _ _ _ _ _ _ _ _ _ _ hc1 hc2).2 Set.univ _)
      isplitl [H6]; · iexists _; iexact H6
      isplitl [H7]; · iexists _; iexact H7
      iintro ⟨⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverB6 c t hc1 hc2)
      unfold owns; iexists _; isplitr
      swap; · iexact H7
      ipureintro; exact View.read_writes_of_cover _ _ _ _ _ (coverB7 c t hc1 hc2)
  · have hc1 : ¬k0_cond1 (grid0.coords t) = 1#1 := fun h => h1 ((hcond1 t).mp h)
    by_cases h2 : t.val / 8 ≤ t.val % 8
    · -- accumulate
      have hi6 : idle0 6 (grid0.coords t) = false := Bool.eq_false_iff.mpr fun h => ((hidle6 t).mp h).2 h2
      have hi7 : idle0 7 (grid0.coords t) = false := Bool.eq_false_iff.mpr fun h => ((hidle7 t).mp h).2 h2
      rw [hi6]; try rw [hi7]
      dsimp only
      have hc2 : k0_cond2 (grid0.coords t) = 1#1 := (hcond2 t).mpr h2
      rw [after6, after7, outsAt_C m c t h1 h2 hc1 hc2]
      simp only [before6_kept m c t.val t rfl h1, before7_kept m c t.val t rfl h1]
      dsimp only [tilesOf]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC c (grid0.coords t) _ _ _ _ _ _ _ _ _ _ _ _ _ _ _ _ hc1 hc2 (iblk m c 0 t) (iblk m c 1 t) (iblk m c 2 t) (iblk m c 3 t) (iblk m c 4 t) (iblk m c 5 t) _ _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverC6 m c t hc1 hc2 _)
      unfold owns; iexists _; isplitr
      swap; · iexact H7
      ipureintro; exact View.read_writes_of_cover _ _ _ _ _ (coverC7 m c t hc1 hc2 _)
    · -- untouched
      have hi6 : idle0 6 (grid0.coords t) = true := (hidle6 t).mpr ⟨h1, h2⟩
      have hi7 : idle0 7 (grid0.coords t) = true := (hidle7 t).mpr ⟨h1, h2⟩
      have hf6 : (win0 6).flush t = false := Bool.eq_false_iff.mpr fun h => by have := (flush0_6 t).mp h; omega
      have hf7 : (win0 7).flush t = false := Bool.eq_false_iff.mpr fun h => by have := (flush0_7 t).mp h; omega
      rw [hi6]; try rw [hi7]
      rw [hf6]; try rw [hf7]
      dsimp only
      have hc2 : ¬k0_cond2 (grid0.coords t) = 1#1 := fun h => h2 ((hcond2 t).mp h)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runD c (grid0.coords t) _ _ _ _ _ _ _ _ _ _ _ _ _ _ _ _ hc1 hc2 Set.univ _)
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; every array of the pipeline ends at what the
    library computes from the proof data, and every other buffer at the later host lines' result from there. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and its three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KI.Cases.lean ====
/-
  The kernel body, run once per control case.  The body has two conditionals on the grid point (i, j):
  "j = 0" (reset both output tiles to zero) and "i ≤ j" (add this block's partial sum and partial count into
  entry (0,0) of the tiles).  Four assignments of the two conditions, four runs: each says which stores the
  body leaves in the two output tiles, as a list of pieces found by running the body symbolically.
-/
import proofs.«172198_j20495583936604_2_alg».proof.Proof.Gen.KernelIdeal.Frame
import proofs.«172198_j20495583936604_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Reset and accumulate (j = 0 and i ≤ j): both tiles are overwritten with zero, then read back and overwritten
    with zero plus the block's partial. The tiles' previous contents are never used. -/
noncomputable def runA (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S8x128 .f32) (harg8 : arg8.IsWhole) (arg9 : Memref sig .tc .vmem S8x128 .f32) (harg9 : arg9.IsWhole)
    (hc1 : k0_cond1 i = 1#1) (hc2 : k0_cond2 i = 1#1) (x0 : Vec F S1024x1 .f32) (x1 : Vec F S1x1024 .f32) (x2 : Vec F S1024x1 .i32) (x3 : Vec F S1x1024 .i32) (x4 : Vec F S1024x1 .i32) (x5 : Vec F S1x1024 .i32) :
    { L : List (View.Piece (Elt F) S8x128 .f32) × List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc0__pairwise_bce_kernel i arg2 harg2 arg3 harg3 arg4 harg4 arg5 harg5 arg6 harg6 arg7 harg7 arg8 harg8 arg9 harg9) K } := by
  refine ⟨(?_, ?_), fun E K => ?run⟩
  case run =>
    simp only [cc0__pairwise_bce_kernel_eq_skeleton]; unfold cc0__pairwise_bce_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexists _; iexact H7

set_option maxHeartbeats 1000000 in
/-- Reset only (j = 0 and i > j): both tiles are overwritten with zero; no input is read. -/
noncomputable def runB (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S8x128 .f32) (harg8 : arg8.IsWhole) (arg9 : Memref sig .tc .vmem S8x128 .f32) (harg9 : arg9.IsWhole)
    (hc1 : k0_cond1 i = 1#1) (hc2 : ¬k0_cond2 i = 1#1) :
    { L : List (View.Piece (Elt F) S8x128 .f32) × List (View.Piece (Elt F) S8x128 .f32) //
      ∀ (E : Set ℕ) (K : PUnit → sProp 𝕄),
        iprop((∃ d, owns (c : Thread nD τ) arg8 fullShare d) ∗ (∃ d, owns (c : Thread nD τ) arg9 fullShare d)
            ∗ (iprop((∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc0__pairwise_bce_kernel i arg2 harg2 arg3 harg3 arg4 harg4 arg5 harg5 arg6 harg6 arg7 harg7 arg8 harg8 arg9 harg9) K } := by
  refine ⟨(?_, ?_), fun E K => ?run⟩
  case run =>
    simp only [cc0__pairwise_bce_kernel_eq_skeleton]; unfold cc0__pairwise_bce_kernel_skel
    simp only [k0_part1_eq_skeleton, k0_part2_eq_skeleton]; unfold k0_part1_skel k0_part2_skel
    unfold owns
    iintro ⟨⟨%d6, %f6, -, H6⟩, ⟨%d7, %f7, -, H7⟩, Hk⟩
    sl_exec (disch := first | exact hc1 | exact hc2)
    sl_step
    iapply Hk
    isplitl [H6]
    · iexists _; iexact H6
    iexists _; iexact H7

set_option maxHeartbeats 1000000 in
/-- Accumulate (j ≠ 0 and i ≤ j): each tile, holding `xo6` / `xo7`, is read and overwritten with its contents plus
    the block's partial. -/
noncomputable def runC (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S8x128 .f32) (harg8 : arg8.IsWhole) (arg9 : Memref sig .tc .vmem S8x128 .f32) (harg9 : arg9.IsWhole)
    (hc1 : ¬k0_cond1 i = 1#1) (hc2 : k0_cond2 i = 1#1) (x0 : Vec F S1024x1 .f32) (x1 : Vec F S1x1024 .f32) (x2 : Vec F S1024x1 .i32) (x3 : Vec F S1x1024 .i32) (x4 : Vec F S1024x1 .i32) (x5 : Vec F S1x1024 .i32) (xo6 xo7 : Vec F S8x128 .f32) :
    { L : List (View.Piece (Elt F) S8x128 .f32) × List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc0__pairwise_bce_kernel i arg2 harg2 arg3 harg3 arg4 harg4 arg5 harg5 arg6 harg6 arg7 harg7 arg8 harg8 arg9 harg9) K } := by
  refine ⟨(?_, ?_), fun E K => ?run⟩
  case run =>
    simp only [cc0__pairwise_bce_kernel_eq_skeleton]; unfold cc0__pairwise_bce_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexists _; iexact H7

/-- Neither (j ≠ 0 and i > j): the body touches no memory. -/
theorem runD (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S8x128 .f32) (harg8 : arg8.IsWhole) (arg9 : Memref sig .tc .vmem S8x128 .f32) (harg9 : arg9.IsWhole)
    (hc1 : ¬k0_cond1 i = 1#1) (hc2 : ¬k0_cond2 i = 1#1) (E : Set ℕ) (K : PUnit → sProp 𝕄) :
    K ⟨⟩ ⊢ wp frame (wpE (defs₀ (F := F)) Variants.none c none) E (cc0__pairwise_bce_kernel i arg2 harg2 arg3 harg3 arg4 harg4 arg5 harg5 arg6 harg6 arg7 harg7 arg8 harg8 arg9 harg9) K := by
  simp only [cc0__pairwise_bce_kernel_eq_skeleton]; unfold cc0__pairwise_bce_kernel_skel
  iintro Hk
  sl_exec (disch := first | exact hc1 | exact hc2)
  sl_step
  iexact Hk

end Cert.KernelIdeal.Body

end
-- ==== Proof.KI.Data.lean ====
/-
  The proof data of the pipeline: what the two output tiles hold after the body at each grid point.
  Point t = 8·i + j.  Row i starts (j = 0) by zeroing the tiles; at every j ≥ i the block's partial sum and count
  are added into them; at 0 < j < i nothing is touched, so the tiles keep what the point before left.  The tiles are
  written back once per row, after j = 7.  So the contents after point t are defined by recursion on t.
-/
import proofs.«172198_j20495583936604_2_alg».proof.Proof.KI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions and the idle points, decided over the 64 grid points -/

/-- "j = 0" holds exactly at the first point of each row. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- "i ≤ j" in terms of the point's number. -/
theorem hcond2 : ∀ t : Fin cfg0.N, k0_cond2 (grid0.coords t) = 1#1 ↔ t.val / 8 ≤ t.val % 8 :=
  (by decide +kernel : ∀ t : Fin grid0.N, k0_cond2 (grid0.coords t) = 1#1 ↔ t.val / 8 ≤ t.val % 8)
/-- The output tiles are untouched exactly where neither condition holds. -/
theorem hidle6 : ∀ t : Fin cfg0.N, cfg0.idle 6 (cfg0.grid.coords t) = true ↔ (¬t.val % 8 = 0 ∧ ¬t.val / 8 ≤ t.val % 8) :=
  (by decide +kernel : ∀ t : Fin grid0.N, idle0 6 (grid0.coords t) = true ↔ (¬t.val % 8 = 0 ∧ ¬t.val / 8 ≤ t.val % 8))
theorem hidle7 : ∀ t : Fin cfg0.N, cfg0.idle 7 (cfg0.grid.coords t) = true ↔ (¬t.val % 8 = 0 ∧ ¬t.val / 8 ≤ t.val % 8) :=
  (by decide +kernel : ∀ t : Fin grid0.N, idle0 7 (grid0.coords t) = true ↔ (¬t.val % 8 = 0 ∧ ¬t.val / 8 ≤ t.val % 8))

/-! ## The staging memrefs at a point, and what each case leaves in the tiles -/

abbrev ms0 (t : Fin cfg0.N) : Memref sig .tc .vmem S1024x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S8x128 .f32 := win0_7.stage (cfg0.slots t 7)
abbrev hs7 (t : Fin cfg0.N) : (ms7 t).IsWhole := hstage0_7 ((cfg0.slots t 7).cast nbuf0_7)

/-- A staging buffer of an output tile, through which its contents are stated (the choice does not matter). -/
abbrev VO : View sig .tc .vmem S8x128 .f32 := (Memref.whole cc0_stg6_0 : Memref sig .tc .vmem S8x128 .f32).view

/-- The pieces the reset-and-accumulate run leaves, at point `t`. -/
abbrev piecesA (c : Dev nD) (t : Fin cfg0.N) (hc1 : k0_cond1 (grid0.coords t) = 1#1) (hc2 : k0_cond2 (grid0.coords t) = 1#1) :=
  (runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) hc1 hc2 (iblk m c 0 t) (iblk m c 1 t) (iblk m c 2 t) (iblk m c 3 t) (iblk m c 4 t) (iblk m c 5 t)).1
/-- The pieces the reset-only run leaves. -/
abbrev piecesB (c : Dev nD) (t : Fin cfg0.N) (hc1 : k0_cond1 (grid0.coords t) = 1#1) (hc2 : ¬k0_cond2 (grid0.coords t) = 1#1) :=
  (runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) hc1 hc2).1
/-- The pieces the accumulate run leaves over tiles holding `xo`. -/
abbrev piecesC (c : Dev nD) (t : Fin cfg0.N) (hc1 : ¬k0_cond1 (grid0.coords t) = 1#1) (hc2 : k0_cond2 (grid0.coords t) = 1#1)
    (xo : Vec F S8x128 .f32 × Vec F S8x128 .f32) :=
  (runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) hc1 hc2 (iblk m c 0 t) (iblk m c 1 t) (iblk m c 2 t) (iblk m c 3 t) (iblk m c 4 t) (iblk m c 5 t) xo.1 xo.2).1

/-- The two tiles after a run: its pieces read back. -/
def tilesOf (L : List (View.Piece (Elt F) S8x128 .f32) × List (View.Piece (Elt F) S8x128 .f32)) : Vec F S8x128 .f32 × Vec F S8x128 .f32 :=
  (VO.read (Elt F) (VO.writes (Elt F) VO.junk L.1), VO.read (Elt F) (VO.writes (Elt F) VO.junk L.2))

/-- Each run's pieces tile the whole tile (every store is of the whole block), so they cover it. -/
theorem coverA6 (c : Dev nD) (t : Fin cfg0.N) (hc1) (hc2) (y : S8x128.Idx) : ∃ pc ∈ (piecesA m c t hc1 hc2).1, y ∈ pc.1.set :=
  View.cover_of_tiledL (piecesA m c t hc1 hc2).1 S8x128.size (by sl_kernel_rfl) y
theorem coverA7 (c : Dev nD) (t : Fin cfg0.N) (hc1) (hc2) (y : S8x128.Idx) : ∃ pc ∈ (piecesA m c t hc1 hc2).2, y ∈ pc.1.set :=
  View.cover_of_tiledL (piecesA m c t hc1 hc2).2 S8x128.size (by sl_kernel_rfl) y
theorem coverB6 (c : Dev nD) (t : Fin cfg0.N) (hc1) (hc2) (y : S8x128.Idx) : ∃ pc ∈ (piecesB (F := F) c t hc1 hc2).1, y ∈ pc.1.set :=
  View.cover_of_tiledL (piecesB (F := F) c t hc1 hc2).1 S8x128.size (by sl_kernel_rfl) y
theorem coverB7 (c : Dev nD) (t : Fin cfg0.N) (hc1) (hc2) (y : S8x128.Idx) : ∃ pc ∈ (piecesB (F := F) c t hc1 hc2).2, y ∈ pc.1.set :=
  View.cover_of_tiledL (piecesB (F := F) c t hc1 hc2).2 S8x128.size (by sl_kernel_rfl) y
theorem coverC6 (c : Dev nD) (t : Fin cfg0.N) (hc1) (hc2) (xo) (y : S8x128.Idx) : ∃ pc ∈ (piecesC m c t hc1 hc2 xo).1, y ∈ pc.1.set :=
  View.cover_of_tiledL (piecesC m c t hc1 hc2 xo).1 S8x128.size (by sl_kernel_rfl) y
theorem coverC7 (c : Dev nD) (t : Fin cfg0.N) (hc1) (hc2) (xo) (y : S8x128.Idx) : ∃ pc ∈ (piecesC m c t hc1 hc2 xo).2, y ∈ pc.1.set :=
  View.cover_of_tiledL (piecesC m c t hc1 hc2 xo).2 S8x128.size (by sl_kernel_rfl) y

/-! ## The tiles after each point -/

/-- THE ACCUMULATION: the two tiles after the body at point `n`. Point 0 resets and accumulates; a later first point of
    a row (n ≡ 0 mod 8, where i > 0 = j) only resets; a point with i ≤ j accumulates over what the point before left;
    any other point leaves what the point before left. -/
def outsAt (c : Dev nD) : (n : ℕ) → n < cfg0.N → Vec F S8x128 .f32 × Vec F S8x128 .f32
  | 0, hn => tilesOf (piecesA m c ⟨0, hn⟩ ((hcond1 ⟨0, hn⟩).mpr (Nat.zero_mod _)) ((hcond2 ⟨0, hn⟩).mpr (by show 0 / 8 ≤ 0 % 8; decide)))
  | n + 1, hn =>
    if h1 : (n + 1) % 8 = 0 then
      tilesOf (piecesB c ⟨n + 1, hn⟩ ((hcond1 ⟨n + 1, hn⟩).mpr h1)
        (fun h => by have h2 := (hcond2 ⟨n + 1, hn⟩).mp h; dsimp only at h2; omega))
    else if h2 : (n + 1) / 8 ≤ (n + 1) % 8 then
      tilesOf (piecesC m c ⟨n + 1, hn⟩ (fun h => h1 ((hcond1 ⟨n + 1, hn⟩).mp h)) ((hcond2 ⟨n + 1, hn⟩).mpr h2)
        (outsAt c n (Nat.lt_of_succ_lt hn)))
    else outsAt c n (Nat.lt_of_succ_lt hn)

theorem outsAt_A (c : Dev nD) (t : Fin cfg0.N) (h0 : t.val = 0) (hc1) (hc2) :
    outsAt m c t.val t.isLt = tilesOf (piecesA m c t hc1 hc2) := by
  obtain ⟨n, hn⟩ := t
  cases n with
  | zero => rfl
  | succ n => exact absurd h0 (Nat.succ_ne_zero n)

theorem outsAt_B (c : Dev nD) (t : Fin cfg0.N) (h1 : t.val % 8 = 0) (h0 : t.val ≠ 0) (hc1) (hc2) :
    outsAt m c t.val t.isLt = tilesOf (piecesB (F := F) c t hc1 hc2) := by
  obtain ⟨n, hn⟩ := t
  cases n with
  | zero => exact absurd rfl h0
  | succ n => exact (dif_pos h1).trans rfl

theorem outsAt_C (c : Dev nD) (t : Fin cfg0.N) (h1 : ¬t.val % 8 = 0) (h2 : t.val / 8 ≤ t.val % 8) (hc1) (hc2) :
    outsAt m c t.val t.isLt
      = tilesOf (piecesC m c t hc1 hc2 (outsAt m c (t.val - 1) (Nat.lt_of_le_of_lt (Nat.sub_le _ _) t.isLt))) := by
  obtain ⟨n, hn⟩ := t
  cases n with
  | zero => exact absurd (Nat.zero_mod _) h1
  | succ n => exact (dif_neg h1).trans ((dif_pos h2).trans rfl)

theorem outsAt_D (c : Dev nD) (t : Fin cfg0.N) (h1 : ¬t.val % 8 = 0) (h2 : ¬t.val / 8 ≤ t.val % 8) :
    outsAt m c t.val t.isLt = outsAt m c (t.val - 1) (Nat.lt_of_le_of_lt (Nat.sub_le _ _) t.isLt) := by
  obtain ⟨n, hn⟩ := t
  cases n with
  | zero => exact absurd (Nat.zero_mod _) h1
  | succ n => exact (dif_neg h1).trans ((dif_neg h2).trans rfl)

/-! ## The proof data -/

/-- The arrays as the region finds them; after the body each input's buffer still at its block, the tiles at
    `outsAt`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]
theorem after7 (c : Dev nD) (t : Fin cfg0.N) : (dats m 0 c).after 7 t = (outsAt m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- At the first point of a row a tile's buffer is fresh (the first point of all, or just written back): anything. -/
theorem before_reset (c : Dev nD) (w : Fin cfg0.W) (hw : (cfg0.win w).isOut = true)
    (hfl : ∀ t : Fin cfg0.N, (cfg0.win w).flush t = true ↔ t.val % 8 = 7)
    (t : Fin cfg0.N) (h1 : t.val % 8 = 0) (d) : (dats m 0 c).before w t d = d := by
  have hN : t.val < 64 := lt_of_lt_of_eq t.isLt (show cfg0.N = 64 from N_0)
  refine Dat.before_out_reset _ w hw t ?_ d
  by_cases h0 : t.val = 0
  · exact .inl h0
  · exact .inr ⟨h0, (hfl _).mpr (by dsimp only; omega)⟩

/-- At any other point a tile's buffer holds what the body left at the point before — which, where that point did not
    touch it, is what the body found there. -/
theorem before_step (c : Dev nD) (w : Fin cfg0.W) (hw : (cfg0.win w).isOut = true)
    (hclip : ∀ (i : cfg0.grid.Coords) a, (cfg0.win w).clip i a = none)
    (hfl : ∀ t : Fin cfg0.N, (cfg0.win w).flush t = true ↔ t.val % 8 = 7)
    (t : Fin cfg0.N) (h1 : ¬t.val % 8 = 0) (d) :
    (dats m 0 c).before w t d
      = match cfg0.idle w (cfg0.grid.coords ⟨t.val - 1, Nat.lt_of_le_of_lt (Nat.sub_le _ _) t.isLt⟩) with
        | true => (dats m 0 c).before w ⟨t.val - 1, Nat.lt_of_le_of_lt (Nat.sub_le _ _) t.isLt⟩ d
        | false => (dats m 0 c).after w ⟨t.val - 1, Nat.lt_of_le_of_lt (Nat.sub_le _ _) t.isLt⟩ := by
  have ht : t.val ≠ 0 := fun h => h1 (by rw [h])
  have hf : (cfg0.win w).flush ⟨t.val - 1, Nat.lt_of_le_of_lt (Nat.sub_le _ _) t.isLt⟩ = false :=
    Bool.eq_false_iff.mpr fun h => by have := (hfl _).mp h; dsimp only at this; omega
  rw [Dat.before_of_pos _ w t ht ((cfg0.win w).fetch_out hw t) d, hf, if_neg Bool.false_ne_true]
  unfold Dat.left
  cases cfg0.idle w (cfg0.grid.coords ⟨t.val - 1, Nat.lt_of_le_of_lt (Nat.sub_le _ _) t.isLt⟩)
  · dsimp only
    unfold Dat.kept
    rw [Pipeline.fill_of_clip_none (cfg := cfg0) w _ (hclip _) d ((dats m 0 c).after w _), Window.fill_cut]
  · rfl

end Cert.KernelIdeal.Body

end
-- ==== Proof.KI.Blocks.lean ====
/-
  The input blocks, entry by entry.  The six input windows stage the score, segment and label vectors, each once as
  a column [8192,1] (blocked by rows: block i holds rows 1024·i … 1024·i + 1023) and once as a row [1,8192] (blocked by
  columns).  Both views are reshapes of the argument vector, so entry p of the column-shaped [1024,1] block at point (i, j) is the
  argument at 1024·i + p (a row of the pair matrix), and entry q of the row-shaped [1,1024] block is the argument at
  1024·j + q (a column of it).
-/
import proofs.«172198_j20495583936604_2_alg».proof.Proof.KI.Data
import Idealize.ShloMosaic.Lib.Pipeline.Value
import Idealize.ShloMosaic.Lib.ValueIdx
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The row of the pair matrix that entry `p` of a column-shaped [1024,1] block at point `t` stands for, -/
def rowIx (t : Fin cfg0.N) (p : Fin 1024) : Fin 8192 :=
  ⟨1024 * (t.val / 8) + p.val, by
    have hN : t.val < 64 := lt_of_lt_of_eq t.isLt (show cfg0.N = 64 from N_0)
    have := p.isLt; omega⟩
/-- and the column of the pair matrix that entry `q` of a row-shaped [1,1024] block stands for. -/
def colIx (t : Fin cfg0.N) (q : Fin 1024) : Fin 8192 :=
  ⟨1024 * (t.val % 8) + q.val, by have := q.isLt; omega⟩

/-- Window 0's array, as the region finds it: the host's reshape of `main_arg1`. -/
theorem V_v0 (c : Dev nD) : (V m c main_v0 : S8192x1.Idx → Elt F .f32)
    = shapeCast S8192x1 (m ((c : Thread nD τ).loc main_arg1)) shapeCasts_S8192_S8192x1 := by
  show StableHlo.after hostOps0 (fun b => m (c, b)) (Proc.devRef .tc main_v0) = _
  after_results
  rfl

theorem idxw0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)

/-- An entry of window 0's block at point `t` is `main_arg1` at the row it stands for. -/
theorem blk0_at (c : Dev nD) (t : Fin cfg0.N) (p : Fin 1024) :
    iblk m c 0 t (ix2 p (0 : Fin 1)) = m ((c : Thread nD τ).loc main_arg1) (ix1 (rowIx t p)) := by
  unfold iblk
  rw [View.read_apply]
  show V m c main_v0 (((cfg0.win 0).blk t).view.emb (ix2 p (0 : Fin 1))) = _
  rw [V_v0]
  refine shapeCast_apply _ _ _ (ix1 (rowIx t p)) ?_
  rw [Shape.rowMajor_val_one, Shape.rowMajor_val_two]
  obtain ⟨e0, e1⟩ := idxw0 t
  show 1024 * (t.val / 8) + p.val = (win0_0.index t (0 : Fin 2) * 1024 + 1 * p.val) * 1 + (win0_0.index t (1 : Fin 2) * 1 + 1 * 0)
  rw [e0, e1]
  omega

/-- Window 1's array, as the region finds it: the host's reshape of `main_arg1`. -/
theorem V_v1 (c : Dev nD) : (V m c main_v1 : S1x8192.Idx → Elt F .f32)
    = shapeCast S1x8192 (m ((c : Thread nD τ).loc main_arg1)) shapeCasts_S8192_S1x8192 := by
  show StableHlo.after hostOps0 (fun b => m (c, b)) (Proc.devRef .tc main_v1) = _
  after_results
  rfl

theorem idxw1 : ∀ t : Fin cfg0.N, win0_1.index t (0 : Fin 2) = 0 ∧ win0_1.index t (1 : Fin 2) = t.val % 8 :=
  (by decide +kernel : ∀ t : Fin grid0.N, win0_1.index t (0 : Fin 2) = 0 ∧ win0_1.index t (1 : Fin 2) = t.val % 8)

/-- An entry of window 1's block at point `t` is `main_arg1` at the column it stands for. -/
theorem blk1_at (c : Dev nD) (t : Fin cfg0.N) (q : Fin 1024) :
    iblk m c 1 t (ix2 (0 : Fin 1) q) = m ((c : Thread nD τ).loc main_arg1) (ix1 (colIx t q)) := by
  unfold iblk
  rw [View.read_apply]
  show V m c main_v1 (((cfg0.win 1).blk t).view.emb (ix2 (0 : Fin 1) q)) = _
  rw [V_v1]
  refine shapeCast_apply _ _ _ (ix1 (colIx t q)) ?_
  rw [Shape.rowMajor_val_one, Shape.rowMajor_val_two]
  obtain ⟨e0, e1⟩ := idxw1 t
  show 1024 * (t.val % 8) + q.val = (win0_1.index t (0 : Fin 2) * 1 + 1 * 0) * 8192 + (win0_1.index t (1 : Fin 2) * 1024 + 1 * q.val)
  rw [e0, e1]
  omega

/-- Window 2's array, as the region finds it: the host's reshape of `main_arg0`. -/
theorem V_v2 (c : Dev nD) : (V m c main_v2 : S8192x1.Idx → Elt F .i32)
    = shapeCast S8192x1 (m ((c : Thread nD τ).loc main_arg0)) shapeCasts_S8192_S8192x1 := by
  show StableHlo.after hostOps0 (fun b => m (c, b)) (Proc.devRef .tc main_v2) = _
  after_results
  rfl

theorem idxw2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- An entry of window 2's block at point `t` is `main_arg0` at the row it stands for. -/
theorem blk2_at (c : Dev nD) (t : Fin cfg0.N) (p : Fin 1024) :
    iblk m c 2 t (ix2 p (0 : Fin 1)) = m ((c : Thread nD τ).loc main_arg0) (ix1 (rowIx t p)) := by
  unfold iblk
  rw [View.read_apply]
  show V m c main_v2 (((cfg0.win 2).blk t).view.emb (ix2 p (0 : Fin 1))) = _
  rw [V_v2]
  refine shapeCast_apply _ _ _ (ix1 (rowIx t p)) ?_
  rw [Shape.rowMajor_val_one, Shape.rowMajor_val_two]
  obtain ⟨e0, e1⟩ := idxw2 t
  show 1024 * (t.val / 8) + p.val = (win0_2.index t (0 : Fin 2) * 1024 + 1 * p.val) * 1 + (win0_2.index t (1 : Fin 2) * 1 + 1 * 0)
  rw [e0, e1]
  omega

/-- Window 3's array, as the region finds it: the host's reshape of `main_arg0`. -/
theorem V_v3 (c : Dev nD) : (V m c main_v3 : S1x8192.Idx → Elt F .i32)
    = shapeCast S1x8192 (m ((c : Thread nD τ).loc main_arg0)) shapeCasts_S8192_S1x8192 := by
  show StableHlo.after hostOps0 (fun b => m (c, b)) (Proc.devRef .tc main_v3) = _
  after_results
  rfl

theorem idxw3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)

/-- An entry of window 3's block at point `t` is `main_arg0` at the column it stands for. -/
theorem blk3_at (c : Dev nD) (t : Fin cfg0.N) (q : Fin 1024) :
    iblk m c 3 t (ix2 (0 : Fin 1) q) = m ((c : Thread nD τ).loc main_arg0) (ix1 (colIx t q)) := by
  unfold iblk
  rw [View.read_apply]
  show V m c main_v3 (((cfg0.win 3).blk t).view.emb (ix2 (0 : Fin 1) q)) = _
  rw [V_v3]
  refine shapeCast_apply _ _ _ (ix1 (colIx t q)) ?_
  rw [Shape.rowMajor_val_one, Shape.rowMajor_val_two]
  obtain ⟨e0, e1⟩ := idxw3 t
  show 1024 * (t.val % 8) + q.val = (win0_3.index t (0 : Fin 2) * 1 + 1 * 0) * 8192 + (win0_3.index t (1 : Fin 2) * 1024 + 1 * q.val)
  rw [e0, e1]
  omega

/-- Window 4's array, as the region finds it: the host's reshape of `main_arg2`. -/
theorem V_v4 (c : Dev nD) : (V m c main_v4 : S8192x1.Idx → Elt F .i32)
    = shapeCast S8192x1 (m ((c : Thread nD τ).loc main_arg2)) shapeCasts_S8192_S8192x1 := by
  show StableHlo.after hostOps0 (fun b => m (c, b)) (Proc.devRef .tc main_v4) = _
  after_results
  rfl

theorem idxw4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- An entry of window 4's block at point `t` is `main_arg2` at the row it stands for. -/
theorem blk4_at (c : Dev nD) (t : Fin cfg0.N) (p : Fin 1024) :
    iblk m c 4 t (ix2 p (0 : Fin 1)) = m ((c : Thread nD τ).loc main_arg2) (ix1 (rowIx t p)) := by
  unfold iblk
  rw [View.read_apply]
  show V m c main_v4 (((cfg0.win 4).blk t).view.emb (ix2 p (0 : Fin 1))) = _
  rw [V_v4]
  refine shapeCast_apply _ _ _ (ix1 (rowIx t p)) ?_
  rw [Shape.rowMajor_val_one, Shape.rowMajor_val_two]
  obtain ⟨e0, e1⟩ := idxw4 t
  show 1024 * (t.val / 8) + p.val = (win0_4.index t (0 : Fin 2) * 1024 + 1 * p.val) * 1 + (win0_4.index t (1 : Fin 2) * 1 + 1 * 0)
  rw [e0, e1]
  omega

/-- Window 5's array, as the region finds it: the host's reshape of `main_arg2`. -/
theorem V_v5 (c : Dev nD) : (V m c main_v5 : S1x8192.Idx → Elt F .i32)
    = shapeCast S1x8192 (m ((c : Thread nD τ).loc main_arg2)) shapeCasts_S8192_S1x8192 := by
  show StableHlo.after hostOps0 (fun b => m (c, b)) (Proc.devRef .tc main_v5) = _
  after_results
  rfl

theorem idxw5 : ∀ t : Fin cfg0.N, win0_5.index t (0 : Fin 2) = 0 ∧ win0_5.index t (1 : Fin 2) = t.val % 8 :=
  (by decide +kernel : ∀ t : Fin grid0.N, win0_5.index t (0 : Fin 2) = 0 ∧ win0_5.index t (1 : Fin 2) = t.val % 8)

/-- An entry of window 5's block at point `t` is `main_arg2` at the column it stands for. -/
theorem blk5_at (c : Dev nD) (t : Fin cfg0.N) (q : Fin 1024) :
    iblk m c 5 t (ix2 (0 : Fin 1) q) = m ((c : Thread nD τ).loc main_arg2) (ix1 (colIx t q)) := by
  unfold iblk
  rw [View.read_apply]
  show V m c main_v5 (((cfg0.win 5).blk t).view.emb (ix2 (0 : Fin 1) q)) = _
  rw [V_v5]
  refine shapeCast_apply _ _ _ (ix1 (colIx t q)) ?_
  rw [Shape.rowMajor_val_one, Shape.rowMajor_val_two]
  obtain ⟨e0, e1⟩ := idxw5 t
  show 1024 * (t.val % 8) + q.val = (win0_5.index t (0 : Fin 2) * 1 + 1 * 0) * 8192 + (win0_5.index t (1 : Fin 2) * 1024 + 1 * q.val)
  rw [e0, e1]
  omega

end Cert.KernelIdeal.Body

end
-- ==== Proof.KI.Tiles.lean ====
/-
  What each run leaves in the two tiles, as values.  Every store of the body writes a whole tile, so a tile after a
  run is the payload of the last store into it, its loads read off the whole buffers: the zero tile after a reset, and
  after an accumulation the old tile plus the scatter of the block's partial into entry (0,0).
-/
import proofs.«172198_j20495583936604_2_alg».proof.Proof.KI.Data
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hz : (![0, 0] : Fin 2 → Nat) = fun _ => 0 := funext fun a => by fin_cases a <;> rfl

/-- The block's pair mask at point `t`: row index < column index, same segment, different label. -/
def maskAt (c : Dev nD) (t : Fin cfg0.N) : IVec S1024x1024 1 :=
  k0_pay5 (F := F) (BitVec.ofNat 32 ((grid0.coords t) 0).val) (BitVec.ofNat 32 ((grid0.coords t) 1).val)
    (iblk m c 2 t) (iblk m c 3 t) (iblk m c 4 t) (iblk m c 5 t)
/-- The block's max(d,0) − d·z, d the score difference of the pair, z the row's label as a float. -/
def lossAt (c : Dev nD) (t : Fin cfg0.N) : FVec F S1024x1024 .f32 := k0_pay6 (iblk m c 0 t) (iblk m c 1 t) (iblk m c 4 t)
/-- The block's |d|. -/
def absAt (c : Dev nD) (t : Fin cfg0.N) : FVec F S1024x1024 .f32 := k0_pay7 (iblk m c 0 t) (iblk m c 1 t)

/-- One accumulation: each tile plus the scatter of the block's partial sum / partial count. -/
def stepT (c : Dev nD) (t : Fin cfg0.N) (prev : Vec F S8x128 .f32 × Vec F S8x128 .f32) : Vec F S8x128 .f32 × Vec F S8x128 .f32 :=
  (k0_pay9 (maskAt m c t) (lossAt m c t) (absAt m c t) prev.1, k0_pay10 (maskAt m c t) prev.2)
/-- The two zero tiles a reset stores. -/
def zeroT : Vec F S8x128 .f32 × Vec F S8x128 .f32 := (k0_pay1, k0_pay2)

theorem tilesB_eq (c : Dev nD) (t : Fin cfg0.N) (hc1) (hc2) : tilesOf (piecesB (F := F) c t hc1 hc2) = zeroT := by
  unfold tilesOf zeroT
  refine Prod.ext ?_ ?_
  · dsimp only
    rw [View.read_writes_eq_canon _ _ _ (coverB6 c t hc1 hc2)]
    unfold piecesB runB
    dsimp only
    rw [View.canon_unit_zero hz]
  · dsimp only
    rw [View.read_writes_eq_canon _ _ _ (coverB7 c t hc1 hc2)]
    unfold piecesB runB
    dsimp only
    rw [View.canon_unit_zero hz]

theorem tilesC_eq (c : Dev nD) (t : Fin cfg0.N) (hc1) (hc2) (xo : Vec F S8x128 .f32 × Vec F S8x128 .f32) :
    tilesOf (piecesC m c t hc1 hc2 xo) = stepT m c t xo := by
  unfold tilesOf stepT maskAt lossAt absAt
  refine Prod.ext ?_ ?_
  · dsimp only
    rw [View.read_writes_eq_canon _ _ _ (coverC6 m c t hc1 hc2 xo)]
    unfold piecesC runC
    dsimp only
    rw [View.canon_unit_zero hz]
    simp only [View.readAt_eq_ld, (hs0 t).read_unread, (hs1 t).read_unread, (hs2 t).read_unread, (hs3 t).read_unread, (hs4 t).read_unread, (hs5 t).read_unread, (hs6 t).read_unread, (hs7 t).read_unread, View.ld_unit_zero (S := S1024x1) hz, View.ld_unit_zero (S := S1x1024) hz, View.ld_unit_zero (S := S8x128) hz]
  · dsimp only
    rw [View.read_writes_eq_canon _ _ _ (coverC7 m c t hc1 hc2 xo)]
    unfold piecesC runC
    dsimp only
    rw [View.canon_unit_zero hz]
    simp only [View.readAt_eq_ld, (hs0 t).read_unread, (hs1 t).read_unread, (hs2 t).read_unread, (hs3 t).read_unread, (hs4 t).read_unread, (hs5 t).read_unread, (hs6 t).read_unread, (hs7 t).read_unread, View.ld_unit_zero (S := S1024x1) hz, View.ld_unit_zero (S := S1x1024) hz, View.ld_unit_zero (S := S8x128) hz]

theorem tilesA_eq (c : Dev nD) (t : Fin cfg0.N) (hc1) (hc2) :
    tilesOf (piecesA m c t hc1 hc2) = stepT m c t zeroT := by
  unfold tilesOf stepT zeroT maskAt lossAt absAt
  refine Prod.ext ?_ ?_
  · dsimp only
    rw [View.read_writes_eq_canon _ _ _ (coverA6 m c t hc1 hc2)]
    unfold piecesA runA
    dsimp only
    sl_unfold_words
    rw [View.canon_cons_unit_zero (S := S8x128) hz, View.readCov_unit_zero (S := S8x128) _ hz]
    simp only [View.readAt_eq_ld, (hs0 t).read_unread, (hs1 t).read_unread, (hs2 t).read_unread, (hs3 t).read_unread, (hs4 t).read_unread, (hs5 t).read_unread, (hs6 t).read_unread, (hs7 t).read_unread, View.ld_unit_zero (S := S1024x1) hz, View.ld_unit_zero (S := S1x1024) hz, View.ld_unit_zero (S := S8x128) hz]
  · dsimp only
    rw [View.read_writes_eq_canon _ _ _ (coverA7 m c t hc1 hc2)]
    unfold piecesA runA
    dsimp only
    sl_unfold_words
    rw [View.canon_cons_unit_zero (S := S8x128) hz, View.readCov_unit_zero (S := S8x128) _ hz]
    simp only [View.readAt_eq_ld, (hs0 t).read_unread, (hs1 t).read_unread, (hs2 t).read_unread, (hs3 t).read_unread, (hs4 t).read_unread, (hs5 t).read_unread, (hs6 t).read_unread, (hs7 t).read_unread, View.ld_unit_zero (S := S1024x1) hz, View.ld_unit_zero (S := S1x1024) hz, View.ld_unit_zero (S := S8x128) hz]

end Cert.KernelIdeal.Body

end
-- ==== Proof.KI.TileSum.lean ====
/-
  The two tile payloads at the ideal instance, read at an entry and summed over the tile.  An accumulation adds to a
  tile the block's total — the sum over the 1024 × 1024 pairs of the block, taken first along each row and then down
  the column of row sums — placed at entry (0,0) and zero elsewhere.  So the sum of a tile's entries grows by exactly
  the block's total, and the zero tile sums to zero.
-/
import proofs.«172198_j20495583936604_2_alg».proof.Proof.KI.Tiles
import Idealize.ShloMosaic.Lib.ValueIdx
import Idealize.ShloMosaic.Lib.Pipeline.Value
import Idealize.ShloMosaic.PureOps.Ideal.Laws

set_option maxRecDepth 16384

noncomputable section

namespace Cert.KernelIdeal.TileSum

open Cert.KernelIdeal Cert.KernelIdeal.Gen
open Idealize.ShloMosaic Idealize.ShloMosaic.TcCoe Idealize.SL.Sem
open Idealize.ShloMosaic.ValueIdx
open scoped BigOperators

/-! ## Layout steps at this kernel's shapes -/

/-- A [1,1] value broadcast to the tile reads its one entry everywhere. -/
theorem bcast11 (X : FVec Ideal S1x1 .f32) (h : S1x1.Broadcasts S8x128) (r : Fin 8) (q : Fin 128) :
    broadcastTo S8x128 X h (ix2 r q) = X (ix2 (0 : Fin 1) (0 : Fin 1)) :=
  broadcastTo_apply X h (ix2 r q) (ix2 (0 : Fin 1) (0 : Fin 1)) (fun a => by match a with | ⟨0, _⟩ => rfl | ⟨1, _⟩ => rfl)

/-- A [1] value viewed [1,1]. -/
theorem cast_1_11 (v : FVec Ideal S1 .f32) (h : S1.ShapeCasts S1x1) :
    shapeCast S1x1 v h (ix2 (0 : Fin 1) (0 : Fin 1)) = v (ix1 (0 : Fin 1)) :=
  shapeCast_apply v h (ix2 (0 : Fin 1) (0 : Fin 1)) (ix1 (0 : Fin 1)) (by rw [Shape.rowMajor_val_one, Shape.rowMajor_val_two]; rfl)

/-- A [1024] vector viewed as a [1024,1] column. -/
theorem cast_col (v : FVec Ideal S1024 .f32) (h : S1024.ShapeCasts S1024x1) (p : Fin 1024) :
    shapeCast S1024x1 v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- The reduction along each row, at row `p`: the sum over the row. -/
theorem red_lanes (X : FVec Ideal S1024x1024 .f32) (h : S1024x1024.Reduces [1] S1024) (hφ : FKind.Formats .f32)
    (hacc : (0x00000000#32 : BitVec 32) = 0x00000000#32) (p : Fin 1024) :
    multiReduction .add [1] S1024 X 0x00000000#32 h hφ hacc (ix1 p) = ∑ q : Fin 1024, X (ix2 p q) := by
  refine (Ideal.multiReduction_add_single X _ h hφ hacc (ix1 p)).trans ?_
  refine Finset.sum_congr rfl fun q _ => congrArg X ?_
  funext a
  match a with
  | ⟨0, _⟩ => rfl
  | ⟨1, _⟩ => rfl

/-- The reduction down a [1024,1] column: the sum of its entries. -/
theorem red_rows (Y : FVec Ideal S1024x1 .f32) (h : S1024x1.Reduces [0] S1) (hφ : FKind.Formats .f32)
    (hacc : (0x00000000#32 : BitVec 32) = 0x00000000#32) :
    multiReduction .add [0] S1 Y 0x00000000#32 h hφ hacc (ix1 (0 : Fin 1)) = ∑ p : Fin 1024, Y (ix2 p (0 : Fin 1)) := by
  refine (Ideal.multiReduction_add_single Y _ h hφ hacc (ix1 (0 : Fin 1))).trans ?_
  refine Finset.sum_congr rfl fun p _ => congrArg Y ?_
  funext a
  match a with
  | ⟨0, _⟩ => rfl
  | ⟨1, _⟩ => rfl

/-- The total of a block: all its entries, row by row. -/
def blockTotal (X : FVec Ideal S1024x1024 .f32) : EReal := ∑ p : Fin 1024, ∑ q : Fin 1024, X (ix2 p q)

/-- Both reductions and the views between them: the block's total, as the [1,1] value the scatter broadcasts. -/
theorem total_eq (X : FVec Ideal S1024x1024 .f32) (h1 : S1024x1024.Reduces [1] S1024) (h0 : S1024x1.Reduces [0] S1)
    (hφ1 hφ0 : FKind.Formats .f32) (hacc1 : (0x00000000#32 : BitVec 32) = 0x00000000#32)
    (hacc0 : (0x00000000#32 : BitVec 32) = 0x00000000#32)
    (sc1 : S1024.ShapeCasts S1024x1) (sc2 : S1.ShapeCasts S1x1) :
    shapeCast S1x1 (multiReduction .add [0] S1 (shapeCast S1024x1 (multiReduction .add [1] S1024 X 0x00000000#32 h1 hφ1 hacc1) sc1)
      0x00000000#32 h0 hφ0 hacc0) sc2 (ix2 (0 : Fin 1) (0 : Fin 1)) = blockTotal X := by
  rw [cast_1_11, red_rows]
  unfold blockTotal
  refine Finset.sum_congr rfl fun p _ => ?_
  rw [cast_col, red_lanes]

/-- The scatter mask selects entry (0,0) of the tile and nothing else. -/
theorem pos_eq : ∀ (r : Fin 8) (q : Fin 128), k0_pay8 (ix2 r q) = if r.val = 0 ∧ q.val = 0 then 1#1 else 0#1 := by
  decide +kernel

/-- Only entry (0,0) of the tile receives the value. -/
theorem scatter_sum (P : EReal) : (∑ r : Fin 8, ∑ q : Fin 128, if r.val = 0 ∧ q.val = 0 then P else 0) = P := by
  rw [Finset.sum_eq_single (0 : Fin 8), Finset.sum_eq_single (0 : Fin 128)]
  · simp
  · intro q _ hq
    rw [if_neg]
    rintro ⟨-, h⟩
    exact hq (Fin.ext h)
  · intro h; exact absurd (Finset.mem_univ _) h
  · intro r _ hr
    refine Finset.sum_eq_zero fun q _ => ?_
    rw [if_neg]
    rintro ⟨h, -⟩
    exact hr (Fin.ext h)
  · intro h; exact absurd (Finset.mem_univ _) h

/-! ## The tiles -/

/-- The pair terms of a block's loss: where the mask holds, max(d,0) − d·z + log(1 + exp(−|d|)); zero elsewhere. -/
def lossTerms (M : IVec S1024x1024 1) (L A : FVec Ideal S1024x1024 .f32) : FVec Ideal S1024x1024 .f32 :=
  select M (addf L (log1p (exp (subf (broadcast S1024x1024 (FloatOps.ofBits .f32 0x00000000#32)) A))))
    (broadcast S1024x1024 (FloatOps.ofBits .f32 0x00000000#32))
/-- The pair terms of a block's count: the mask as a float. -/
def cntTerms (M : IVec S1024x1024 1) : FVec Ideal S1024x1024 .f32 := sitofp .f32 (extui 32 M natLt_1_32)

theorem pay9_apply (M : IVec S1024x1024 1) (L A : FVec Ideal S1024x1024 .f32) (prev : Vec Ideal S8x128 .f32) (r : Fin 8) (q : Fin 128) :
    k0_pay9 (F := Ideal) M L A prev (ix2 r q)
      = prev (ix2 r q) + (if r.val = 0 ∧ q.val = 0 then blockTotal (lossTerms M L A) else 0) := by
  unfold k0_pay9
  simp only [addf_apply, select_apply, broadcast_apply, shapeCast_self]
  rw [bcast11, total_eq, pos_eq]
  by_cases h : r.val = 0 ∧ q.val = 0
  · rw [if_pos h, if_pos h, select_one]; rfl
  · rw [if_neg h, if_neg h, select_zero, Ideal.ofBits_def, Ideal.ofBits_zero_f32]

theorem pay10_apply (M : IVec S1024x1024 1) (prev : Vec Ideal S8x128 .f32) (r : Fin 8) (q : Fin 128) :
    k0_pay10 (F := Ideal) M prev (ix2 r q)
      = prev (ix2 r q) + (if r.val = 0 ∧ q.val = 0 then blockTotal (cntTerms M) else 0) := by
  unfold k0_pay10
  simp only [addf_apply, select_apply, broadcast_apply, shapeCast_self]
  rw [bcast11, total_eq, pos_eq]
  by_cases h : r.val = 0 ∧ q.val = 0
  · rw [if_pos h, if_pos h, select_one]; rfl
  · rw [if_neg h, if_neg h, select_zero, Ideal.ofBits_def, Ideal.ofBits_zero_f32]

/-- The sum of a tile's entries. -/
def tileSum (X : Vec Ideal S8x128 .f32) : EReal := ∑ y : S8x128.Idx, X y

theorem tileSum_eq (X : Vec Ideal S8x128 .f32) : tileSum X = ∑ r : Fin 8, ∑ q : Fin 128, X (ix2 r q) := sum_idx2 X

/-- An accumulation raises the loss tile's sum by the block's loss total, -/
theorem tileSum_pay9 (M : IVec S1024x1024 1) (L A : FVec Ideal S1024x1024 .f32) (prev : Vec Ideal S8x128 .f32) :
    tileSum (k0_pay9 (F := Ideal) M L A prev) = tileSum prev + blockTotal (lossTerms M L A) := by
  rw [tileSum_eq, tileSum_eq]
  simp only [pay9_apply, Finset.sum_add_distrib, scatter_sum]

/-- and the count tile's sum by the block's count total. -/
theorem tileSum_pay10 (M : IVec S1024x1024 1) (prev : Vec Ideal S8x128 .f32) :
    tileSum (k0_pay10 (F := Ideal) M prev) = tileSum prev + blockTotal (cntTerms M) := by
  rw [tileSum_eq, tileSum_eq]
  simp only [pay10_apply, Finset.sum_add_distrib, scatter_sum]

/-- The zero tiles sum to zero. -/
theorem tileSum_pay1 : tileSum (k0_pay1 (F := Ideal)) = 0 := by
  unfold tileSum k0_pay1
  simp only [broadcast_apply]
  refine Finset.sum_eq_zero fun y _ => ?_
  show Ideal.ofBits .f32 0x00000000#32 = 0
  exact Ideal.ofBits_zero_f32
theorem tileSum_pay2 : tileSum (k0_pay2 (F := Ideal)) = 0 := by
  unfold tileSum k0_pay2
  simp only [broadcast_apply]
  refine Finset.sum_eq_zero fun y _ => ?_
  show Ideal.ofBits .f32 0x00000000#32 = 0
  exact Ideal.ofBits_zero_f32

end Cert.KernelIdeal.TileSum

end
-- ==== Proof.KI.Oblig.lean ====
/-
  The body obligation and the frame run.  At each point the tiles' buffers are found at what the recursion left at
  the point before (or fresh, at the first point of a row), the case the point is in is read off its number, and the
  matching run of the body applies.  Where the body touches nothing it hands the tiles back as it was given them.
-/
import proofs.«172198_j20495583936604_2_alg».proof.Proof.KI.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a point that is not the first of its row, tile 6's buffer holds what the recursion left at the point before:
    that point either stored the tile (then this is its `after`) or did not touch it (then, by induction, it held what
    the recursion had left one point earlier, which is also the recursion's value there). -/
theorem before6_kept (c : Dev nD) : ∀ (n : ℕ) (t : Fin cfg0.N), t.val = n → ¬t.val % 8 = 0 → ∀ d,
    (dats m 0 c).before 6 t d = (outsAt m c (t.val - 1) (Nat.lt_of_le_of_lt (Nat.sub_le _ _) t.isLt)).1 := by
  intro n
  induction n using Nat.strong_induction_on with
  | _ n ih =>
    intro t htn h8 d
    have hN : t.val < 64 := lt_of_lt_of_eq t.isLt (show cfg0.N = 64 from N_0)
    have key := before_step m c 6 rfl (fun _ _ => rfl) flush0_6 t h8 d
    by_cases hi : ¬(t.val - 1) % 8 = 0 ∧ ¬(t.val - 1) / 8 ≤ (t.val - 1) % 8
    · have hidle : cfg0.idle 6 (cfg0.grid.coords ⟨t.val - 1, Nat.lt_of_le_of_lt (Nat.sub_le _ _) t.isLt⟩) = true := (hidle6 ⟨t.val - 1, Nat.lt_of_le_of_lt (Nat.sub_le _ _) t.isLt⟩).mpr hi
      rw [hidle] at key
      rw [key]
      have h' := ih (t.val - 1) (by omega) ⟨t.val - 1, Nat.lt_of_le_of_lt (Nat.sub_le _ _) t.isLt⟩ rfl hi.1 d
      rw [h']
      have hD := outsAt_D m c ⟨t.val - 1, Nat.lt_of_le_of_lt (Nat.sub_le _ _) t.isLt⟩ hi.1 hi.2
      exact (congrArg Prod.fst hD).symm
    · have hidle : cfg0.idle 6 (cfg0.grid.coords ⟨t.val - 1, Nat.lt_of_le_of_lt (Nat.sub_le _ _) t.isLt⟩) = false :=
        Bool.eq_false_iff.mpr fun h => hi ((hidle6 ⟨t.val - 1, Nat.lt_of_le_of_lt (Nat.sub_le _ _) t.isLt⟩).mp h)
      rw [hidle] at key
      rw [key]
      exact after6 m c ⟨t.val - 1, Nat.lt_of_le_of_lt (Nat.sub_le _ _) t.isLt⟩

/-- At a point that is not the first of its row, tile 7's buffer holds what the recursion left at the point before:
    that point either stored the tile (then this is its `after`) or did not touch it (then, by induction, it held what
    the recursion had left one point earlier, which is also the recursion's value there). -/
theorem before7_kept (c : Dev nD) : ∀ (n : ℕ) (t : Fin cfg0.N), t.val = n → ¬t.val % 8 = 0 → ∀ d,
    (dats m 0 c).before 7 t d = (outsAt m c (t.val - 1) (Nat.lt_of_le_of_lt (Nat.sub_le _ _) t.isLt)).2 := by
  intro n
  induction n using Nat.strong_induction_on with
  | _ n ih =>
    intro t htn h8 d
    have hN : t.val < 64 := lt_of_lt_of_eq t.isLt (show cfg0.N = 64 from N_0)
    have key := before_step m c 7 rfl (fun _ _ => rfl) flush0_7 t h8 d
    by_cases hi : ¬(t.val - 1) % 8 = 0 ∧ ¬(t.val - 1) / 8 ≤ (t.val - 1) % 8
    · have hidle : cfg0.idle 7 (cfg0.grid.coords ⟨t.val - 1, Nat.lt_of_le_of_lt (Nat.sub_le _ _) t.isLt⟩) = true := (hidle7 ⟨t.val - 1, Nat.lt_of_le_of_lt (Nat.sub_le _ _) t.isLt⟩).mpr hi
      rw [hidle] at key
      rw [key]
      have h' := ih (t.val - 1) (by omega) ⟨t.val - 1, Nat.lt_of_le_of_lt (Nat.sub_le _ _) t.isLt⟩ rfl hi.1 d
      rw [h']
      have hD := outsAt_D m c ⟨t.val - 1, Nat.lt_of_le_of_lt (Nat.sub_le _ _) t.isLt⟩ hi.1 hi.2
      exact (congrArg Prod.snd hD).symm
    · have hidle : cfg0.idle 7 (cfg0.grid.coords ⟨t.val - 1, Nat.lt_of_le_of_lt (Nat.sub_le _ _) t.isLt⟩) = false :=
        Bool.eq_false_iff.mpr fun h => hi ((hidle7 ⟨t.val - 1, Nat.lt_of_le_of_lt (Nat.sub_le _ _) t.isLt⟩).mp h)
      rw [hidle] at key
      rw [key]
      exact after7 m c ⟨t.val - 1, Nat.lt_of_le_of_lt (Nat.sub_le _ _) t.isLt⟩

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d)))

/-- and what it returns: every input's buffer at its block; each tile at the recursion's value, or, where the point
    does not touch it, at what the body found. -/
def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ (match cfg0.idle 6 (cfg0.grid.coords t) with
      | true =>
        match (cfg0.win 6).flush t with
        | false => iprop(∃ d, owns (c : Thread nD τ) ((cfg0.win 6).stage (cfg0.slots t 6)) fullShare ((dats m 0 c).before 6 t d))
        | true => owns (c : Thread nD τ) ((cfg0.win 6).stage (cfg0.slots t 6)) fullShare ((dats m 0 c).after 6 t)
      | false => owns (c : Thread nD τ) ((cfg0.win 6).stage (cfg0.slots t 6)) fullShare ((dats m 0 c).after 6 t))
    ∗ (match cfg0.idle 7 (cfg0.grid.coords t) with
      | true =>
        match (cfg0.win 7).flush t with
        | false => iprop(∃ d, owns (c : Thread nD τ) ((cfg0.win 7).stage (cfg0.slots t 7)) fullShare ((dats m 0 c).before 7 t d))
        | true => owns (c : Thread nD τ) ((cfg0.win 7).stage (cfg0.slots t 7)) fullShare ((dats m 0 c).after 7 t)
      | false => owns (c : Thread nD τ) ((cfg0.win 7).stage (cfg0.slots t 7)) fullShare ((dats m 0 c).after 7 t)))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5]
  have hN : t.val < 64 := lt_of_lt_of_eq t.isLt (show cfg0.N = 64 from N_0)
  by_cases h1 : t.val % 8 = 0
  · have hi6 : idle0 6 (grid0.coords t) = false := Bool.eq_false_iff.mpr fun h => ((hidle6 t).mp h).1 h1
    have hi7 : idle0 7 (grid0.coords t) = false := Bool.eq_false_iff.mpr fun h => ((hidle7 t).mp h).1 h1
    rw [hi6]; try rw [hi7]
    dsimp only
    have hc1 : k0_cond1 (grid0.coords t) = 1#1 := (hcond1 t).mpr h1
    by_cases h0 : t.val = 0
    · -- reset and accumulate
      have hc2 : k0_cond2 (grid0.coords t) = 1#1 := (hcond2 t).mpr (by rw [h0])
      rw [after6, after7, outsAt_A m c t h0 hc1 hc2]
      dsimp only [tilesOf]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) _ _ _ _ _ _ _ _ _ _ _ _ _ _ _ _ hc1 hc2 (iblk m c 0 t) (iblk m c 1 t) (iblk m c 2 t) (iblk m c 3 t) (iblk m c 4 t) (iblk m c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverA6 m c t hc1 hc2)
      unfold owns; iexists _; isplitr
      swap; · iexact H7
      ipureintro; exact View.read_writes_of_cover _ _ _ _ _ (coverA7 m c t hc1 hc2)
    · -- reset only
      have hc2 : ¬k0_cond2 (grid0.coords t) = 1#1 := fun h => by have := (hcond2 t).mp h; omega
      rw [after6, after7, outsAt_B m c t h1 h0 hc1 hc2]
      dsimp only [tilesOf]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c (grid0.coords t) _ _ _ _ _ _ _ _ _ _ _ _ _ _ _ _ hc1 hc2).2 Set.univ _)
      isplitl [H6]; · iexists _; iexact H6
      isplitl [H7]; · iexists _; iexact H7
      iintro ⟨⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverB6 c t hc1 hc2)
      unfold owns; iexists _; isplitr
      swap; · iexact H7
      ipureintro; exact View.read_writes_of_cover _ _ _ _ _ (coverB7 c t hc1 hc2)
  · have hc1 : ¬k0_cond1 (grid0.coords t) = 1#1 := fun h => h1 ((hcond1 t).mp h)
    by_cases h2 : t.val / 8 ≤ t.val % 8
    · -- accumulate
      have hi6 : idle0 6 (grid0.coords t) = false := Bool.eq_false_iff.mpr fun h => ((hidle6 t).mp h).2 h2
      have hi7 : idle0 7 (grid0.coords t) = false := Bool.eq_false_iff.mpr fun h => ((hidle7 t).mp h).2 h2
      rw [hi6]; try rw [hi7]
      dsimp only
      have hc2 : k0_cond2 (grid0.coords t) = 1#1 := (hcond2 t).mpr h2
      rw [after6, after7, outsAt_C m c t h1 h2 hc1 hc2]
      simp only [before6_kept m c t.val t rfl h1, before7_kept m c t.val t rfl h1]
      dsimp only [tilesOf]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC c (grid0.coords t) _ _ _ _ _ _ _ _ _ _ _ _ _ _ _ _ hc1 hc2 (iblk m c 0 t) (iblk m c 1 t) (iblk m c 2 t) (iblk m c 3 t) (iblk m c 4 t) (iblk m c 5 t) _ _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverC6 m c t hc1 hc2 _)
      unfold owns; iexists _; isplitr
      swap; · iexact H7
      ipureintro; exact View.read_writes_of_cover _ _ _ _ _ (coverC7 m c t hc1 hc2 _)
    · -- untouched
      have hi6 : idle0 6 (grid0.coords t) = true := (hidle6 t).mpr ⟨h1, h2⟩
      have hi7 : idle0 7 (grid0.coords t) = true := (hidle7 t).mpr ⟨h1, h2⟩
      have hf6 : (win0 6).flush t = false := Bool.eq_false_iff.mpr fun h => by have := (flush0_6 t).mp h; omega
      have hf7 : (win0 7).flush t = false := Bool.eq_false_iff.mpr fun h => by have := (flush0_7 t).mp h; omega
      rw [hi6]; try rw [hi7]
      rw [hf6]; try rw [hf7]
      dsimp only
      have hc2 : ¬k0_cond2 (grid0.coords t) = 1#1 := fun h => h2 ((hcond2 t).mp h)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runD c (grid0.coords t) _ _ _ _ _ _ _ _ _ _ _ _ _ _ _ _ hc1 hc2 Set.univ _)
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; every array of the pipeline ends at what the
    library computes from the proof data, and every other buffer at the later host lines' result from there. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and its three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KI.Final.lean ====
/-
  From the tiles to the arrays.  Each output array has 64 rows of 128; its rows 8·I … 8·I + 7 are row I's tile, written
  back once, after the last point of the row.  So the array after the run is, block by block, the tile the recursion
  leaves at points 7, 15, …, 63.
-/
import proofs.«172198_j20495583936604_2_alg».proof.Proof.KI.Oblig
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem outsAt_congr (c : Dev nD) {n n' : ℕ} (h : n = n') (hn : n < cfg0.N) (hn' : n' < cfg0.N) :
    outsAt m c n hn = outsAt m c n' hn' := by
  subst h; rfl

/-- Row I's two tiles as its last point leaves them. -/
def rowTile (c : Dev nD) (I : ℕ) (hI : I < 8) : Vec F S8x128 .f32 × Vec F S8x128 .f32 :=
  outsAt m c (8 * I + 7) (by rw [show cfg0.N = 64 from N_0]; omega)

/-- Window 6's block index: the row's number, column block 0. -/
theorem idx6 : ∀ t : Fin cfg0.N, win0_6.index t (0 : Fin 2) = t.val / 8 ∧ win0_6.index t (1 : Fin 2) = 0 :=
  (by decide +kernel : ∀ t : Fin grid0.N, win0_6.index t (0 : Fin 2) = t.val / 8 ∧ win0_6.index t (1 : Fin 2) = 0)

/-- The array the tile 6 is written back into, after the run: rows 8·I … 8·I + 7 hold row I's tile as the last point of
    the row left it. -/
def G6 (c : Dev nD) : S64x128.Idx → Elt F .f32 := fun i =>
  (rowTile m c ((i 0).val / 8) (by have h : (i 0).val < 64 := (i 0).isLt; omega)).1
    (ix2 (⟨(i 0).val % 8, Nat.mod_lt _ (by decide)⟩ : Fin 8) (⟨(i 1).val, (i 1).isLt⟩ : Fin 128))

/-- What a write-back writes is the block of that array at the point's block index. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after6]
  have hN : t.val < 64 := lt_of_lt_of_eq t.isLt (show cfg0.N = 64 from N_0)
  have h7 : t.val % 8 = 7 := (flush0_6 t).mp hf
  obtain ⟨e0, e1⟩ := idx6 t
  funext j
  have hj0 : (j 0).val < 8 := (j 0).isLt
  have hj1 : (j 1).val < 128 := (j 1).isLt
  show (outsAt m c t.val t.isLt).1 j = G6 m c (((cfg0.win 6).blk t).view.emb j)
  have k0 : ((((cfg0.win 6).blk t).view.emb j) 0).val = win0_6.index t (0 : Fin 2) * 8 + 1 * (j 0).val := rfl
  have k1 : ((((cfg0.win 6).blk t).view.emb j) 1).val = win0_6.index t (1 : Fin 2) * 128 + 1 * (j 1).val := rfl
  unfold G6 rowTile
  have hn : 8 * (((((cfg0.win 6).blk t).view.emb j) 0).val / 8) + 7 = t.val := by rw [k0, e0]; omega
  rw [outsAt_congr m c hn _ t.isLt]
  refine congrArg (outsAt m c t.val t.isLt).1 ?_
  funext a
  match a with
  | ⟨0, _⟩ => exact Fin.ext (by show (j 0).val = ((((cfg0.win 6).blk t).view.emb j) 0).val % 8; rw [k0, e0]; omega)
  | ⟨1, _⟩ => exact Fin.ext (by show (j 1).val = ((((cfg0.win 6).blk t).view.emb j) 1).val; rw [k1, e1]; omega)

/-- An index of the array is in point `t`'s block iff each coordinate is in the block's range on its axis. -/
theorem mem_blk6 (t : Fin cfg0.N) (i : S64x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v6_0).slice (win0_6.rect t)).set ↔ _
  rw [View.set_slice_whole, Rect.mem_set_unit]
  exact Iff.rfl

/-- Row R of the array is written back by the last point of row R / 8. -/
theorem cover6 (i : S64x128.Idx) : ∃ t : Fin cfg0.N, (cfg0.win 6).flush t = true ∧ i ∈ ((cfg0.win 6).blk t).view.set := by
  have hi0 : (i 0).val < 64 := (i 0).isLt
  have hi1 : (i 1).val < 128 := (i 1).isLt
  refine ⟨⟨8 * ((i 0).val / 8) + 7, by rw [show cfg0.N = 64 from N_0]; omega⟩, (flush0_6 _).mpr (by dsimp only; omega), ?_⟩
  rw [mem_blk6]
  obtain ⟨e0, e1⟩ := idx6 ⟨8 * ((i 0).val / 8) + 7, by rw [show cfg0.N = 64 from N_0]; omega⟩
  dsimp only at e0 e1
  intro a
  match a with
  | ⟨0, _⟩ =>
    show win0_6.index _ (0 : Fin 2) * 8 ≤ (i 0).val ∧ (i 0).val < win0_6.index _ (0 : Fin 2) * 8 + 8
    rw [e0]; omega
  | ⟨1, _⟩ =>
    show win0_6.index _ (1 : Fin 2) * 128 ≤ (i 1).val ∧ (i 1).val < win0_6.index _ (1 : Fin 2) * 128 + 128
    rw [e1]; omega

/-- So the array ends holding it. -/
theorem final6 (c : Dev nD) : (dats m 0 c).arrAt 6 cfg0.N = G6 m c :=
  (dats m 0 c).arrAt_eq_of_cover 6 (G6 m c) (flushed6_eq m c) (cover6)

/-- Window 7's block index: the row's number, column block 0. -/
theorem idx7 : ∀ t : Fin cfg0.N, win0_7.index t (0 : Fin 2) = t.val / 8 ∧ win0_7.index t (1 : Fin 2) = 0 :=
  (by decide +kernel : ∀ t : Fin grid0.N, win0_7.index t (0 : Fin 2) = t.val / 8 ∧ win0_7.index t (1 : Fin 2) = 0)

/-- The array the tile 7 is written back into, after the run: rows 8·I … 8·I + 7 hold row I's tile as the last point of
    the row left it. -/
def G7 (c : Dev nD) : S64x128.Idx → Elt F .f32 := fun i =>
  (rowTile m c ((i 0).val / 8) (by have h : (i 0).val < 64 := (i 0).isLt; omega)).2
    (ix2 (⟨(i 0).val % 8, Nat.mod_lt _ (by decide)⟩ : Fin 8) (⟨(i 1).val, (i 1).isLt⟩ : Fin 128))

/-- What a write-back writes is the block of that array at the point's block index. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after7]
  have hN : t.val < 64 := lt_of_lt_of_eq t.isLt (show cfg0.N = 64 from N_0)
  have h7 : t.val % 8 = 7 := (flush0_7 t).mp hf
  obtain ⟨e0, e1⟩ := idx7 t
  funext j
  have hj0 : (j 0).val < 8 := (j 0).isLt
  have hj1 : (j 1).val < 128 := (j 1).isLt
  show (outsAt m c t.val t.isLt).2 j = G7 m c (((cfg0.win 7).blk t).view.emb j)
  have k0 : ((((cfg0.win 7).blk t).view.emb j) 0).val = win0_7.index t (0 : Fin 2) * 8 + 1 * (j 0).val := rfl
  have k1 : ((((cfg0.win 7).blk t).view.emb j) 1).val = win0_7.index t (1 : Fin 2) * 128 + 1 * (j 1).val := rfl
  unfold G7 rowTile
  have hn : 8 * (((((cfg0.win 7).blk t).view.emb j) 0).val / 8) + 7 = t.val := by rw [k0, e0]; omega
  rw [outsAt_congr m c hn _ t.isLt]
  refine congrArg (outsAt m c t.val t.isLt).2 ?_
  funext a
  match a with
  | ⟨0, _⟩ => exact Fin.ext (by show (j 0).val = ((((cfg0.win 7).blk t).view.emb j) 0).val % 8; rw [k0, e0]; omega)
  | ⟨1, _⟩ => exact Fin.ext (by show (j 1).val = ((((cfg0.win 7).blk t).view.emb j) 1).val; rw [k1, e1]; omega)

/-- An index of the array is in point `t`'s block iff each coordinate is in the block's range on its axis. -/
theorem mem_blk7 (t : Fin cfg0.N) (i : S64x128.Idx) :
    i ∈ ((cfg0.win 7).blk t).view.set ↔ ∀ a : Fin 2, win0_7.index t a * S8x128.size a ≤ (i a).val ∧ (i a).val < win0_7.index t a * S8x128.size a + S8x128.size a := by
  show i ∈ ((View.whole main_v6_1).slice (win0_7.rect t)).set ↔ _
  rw [View.set_slice_whole, Rect.mem_set_unit]
  exact Iff.rfl

/-- Row R of the array is written back by the last point of row R / 8. -/
theorem cover7 (i : S64x128.Idx) : ∃ t : Fin cfg0.N, (cfg0.win 7).flush t = true ∧ i ∈ ((cfg0.win 7).blk t).view.set := by
  have hi0 : (i 0).val < 64 := (i 0).isLt
  have hi1 : (i 1).val < 128 := (i 1).isLt
  refine ⟨⟨8 * ((i 0).val / 8) + 7, by rw [show cfg0.N = 64 from N_0]; omega⟩, (flush0_7 _).mpr (by dsimp only; omega), ?_⟩
  rw [mem_blk7]
  obtain ⟨e0, e1⟩ := idx7 ⟨8 * ((i 0).val / 8) + 7, by rw [show cfg0.N = 64 from N_0]; omega⟩
  dsimp only at e0 e1
  intro a
  match a with
  | ⟨0, _⟩ =>
    show win0_7.index _ (0 : Fin 2) * 8 ≤ (i 0).val ∧ (i 0).val < win0_7.index _ (0 : Fin 2) * 8 + 8
    rw [e0]; omega
  | ⟨1, _⟩ =>
    show win0_7.index _ (1 : Fin 2) * 128 ≤ (i 1).val ∧ (i 1).val < win0_7.index _ (1 : Fin 2) * 128 + 128
    rw [e1]; omega

/-- So the array ends holding it. -/
theorem final7 (c : Dev nD) : (dats m 0 c).arrAt 7 cfg0.N = G7 m c :=
  (dats m 0 c).arrAt_eq_of_cover 7 (G7 m c) (flushed7_eq m c) (cover7)

end Cert.KernelIdeal.Body

end
-- ==== Proof.BlockSum.lean ====
/-
  Sums over pairs, block by block.  An index below 8192 is 1024·I + p with I < 8 and p < 1024, so a sum over all pairs
  (a, b) is the sum over the 8 × 8 blocks (I, J) of the sums inside each block.  When the summand vanishes unless
  a < b, every block strictly below the diagonal (J < I) sums to zero: all its rows come after all its columns.
  Also the bookkeeping of a row's running total: the blocks J ≤ k of row I that lie on or above the diagonal.
-/
import Mathlib.Logic.Equiv.Fin.Basic
import Idealize.ShloMosaic.Lib.ValueIdx

open scoped BigOperators

namespace Cert.PairSum

variable {M : Type*} [AddCommMonoid M]

/-- Index 1024·I + p of an axis of 8192. -/
def at8 (I : Fin 8) (p : Fin 1024) : Fin 8192 := ⟨1024 * I.val + p.val, by have := I.isLt; have := p.isLt; omega⟩
/-- Index 8·I + r of an axis of 64. -/
def at64 (I : Fin 8) (r : Fin 8) : Fin 64 := ⟨8 * I.val + r.val, by have := I.isLt; have := r.isLt; omega⟩

theorem at8_val (I : Fin 8) (p : Fin 1024) : (at8 I p).val = 1024 * I.val + p.val := rfl
theorem at64_val (I : Fin 8) (r : Fin 8) : (at64 I r).val = 8 * I.val + r.val := rfl

/-- A sum over an axis of 8192 is the sum over its 8 blocks of 1024. -/
theorem sum_at8 (f : Fin 8192 → M) : ∑ a, f a = ∑ I : Fin 8, ∑ p : Fin 1024, f (at8 I p) := by
  rw [← Equiv.sum_comp (finProdFinEquiv : Fin 8 × Fin 1024 ≃ Fin (8 * 1024)) f, Fintype.sum_prod_type]
  refine Finset.sum_congr rfl fun I _ => Finset.sum_congr rfl fun p _ => congrArg f (Fin.ext ?_)
  show p.val + 1024 * I.val = 1024 * I.val + p.val
  omega

/-- A sum over an axis of 64 is the sum over its 8 blocks of 8. -/
theorem sum_at64 (f : Fin 64 → M) : ∑ a, f a = ∑ I : Fin 8, ∑ r : Fin 8, f (at64 I r) := by
  rw [← Equiv.sum_comp (finProdFinEquiv : Fin 8 × Fin 8 ≃ Fin (8 * 8)) f, Fintype.sum_prod_type]
  refine Finset.sum_congr rfl fun I _ => Finset.sum_congr rfl fun r _ => congrArg f (Fin.ext ?_)
  show r.val + 8 * I.val = 8 * I.val + r.val
  omega

/-- THE TRIANGLE: a pair function that vanishes unless row < column sums, over all pairs, to the sum over the blocks
    on or above the diagonal of each block's own sum. -/
theorem sum_pairs (T : Fin 8192 → Fin 8192 → M) (hT : ∀ a b : Fin 8192, b.val ≤ a.val → T a b = 0) :
    ∑ a, ∑ b, T a b
      = ∑ I : Fin 8, ∑ J : Fin 8, if I.val ≤ J.val then ∑ p : Fin 1024, ∑ q : Fin 1024, T (at8 I p) (at8 J q) else 0 := by
  rw [sum_at8]
  refine Finset.sum_congr rfl fun I _ => ?_
  have h1 : ∀ p : Fin 1024, ∑ b, T (at8 I p) b = ∑ J : Fin 8, ∑ q : Fin 1024, T (at8 I p) (at8 J q) :=
    fun p => sum_at8 (fun b => T (at8 I p) b)
  rw [Finset.sum_congr rfl fun p _ => h1 p, Finset.sum_comm]
  refine Finset.sum_congr rfl fun J _ => ?_
  by_cases h : I.val ≤ J.val
  · rw [if_pos h]
  · rw [if_neg h]
    refine Finset.sum_eq_zero fun p _ => Finset.sum_eq_zero fun q _ => hT _ _ ?_
    have := q.isLt
    rw [at8_val, at8_val]
    omega

/-- The first block of a row: on the diagonal only for row 0. -/
theorem row_zero (I : ℕ) (g : Fin 8 → M) :
    (∑ J : Fin 8, if J.val ≤ 0 ∧ I ≤ J.val then g J else 0) = if I = 0 then g 0 else 0 := by
  rw [Finset.sum_eq_single (0 : Fin 8)]
  · by_cases h : I = 0
    · subst h; simp
    · rw [if_neg h, if_neg]; rintro ⟨-, h2⟩; exact h (Nat.le_zero.mp h2)
  · intro J _ hJ
    rw [if_neg]
    rintro ⟨h1, -⟩
    exact hJ (Fin.ext (Nat.le_zero.mp h1))
  · intro h; exact absurd (Finset.mem_univ _) h

/-- One more block of a row: the running total gains block k + 1 if it is on or above the diagonal. -/
theorem row_succ (I k : ℕ) (hk : k + 1 < 8) (g : Fin 8 → M) :
    (∑ J : Fin 8, if J.val ≤ k + 1 ∧ I ≤ J.val then g J else 0)
      = (∑ J : Fin 8, if J.val ≤ k ∧ I ≤ J.val then g J else 0) + (if I ≤ k + 1 then g ⟨k + 1, hk⟩ else 0) := by
  have hpt : ∀ J : Fin 8, (if J.val ≤ k + 1 ∧ I ≤ J.val then g J else 0)
      = (if J.val ≤ k ∧ I ≤ J.val then g J else 0)
        + (if J = ⟨k + 1, hk⟩ then (if I ≤ k + 1 then g ⟨k + 1, hk⟩ else 0) else 0) := by
    intro J
    by_cases hJ : J = ⟨k + 1, hk⟩
    · subst hJ
      rw [if_pos rfl, if_neg (fun h : (k + 1 ≤ k ∧ _) => absurd h.1 (Nat.not_succ_le_self k)), zero_add]
      by_cases h : I ≤ k + 1
      · rw [if_pos ⟨le_refl _, h⟩, if_pos h]
      · rw [if_neg (fun h' : (_ ∧ I ≤ k + 1) => h h'.2), if_neg h]
    · have hne : J.val ≠ k + 1 := fun h => hJ (Fin.ext h)
      rw [if_neg hJ, add_zero]
      by_cases h : J.val ≤ k ∧ I ≤ J.val
      · rw [if_pos h, if_pos ⟨Nat.le_succ_of_le h.1, h.2⟩]
      · rw [if_neg h, if_neg]
        rintro ⟨h1, h2⟩
        exact h ⟨by omega, h2⟩
  rw [Finset.sum_congr rfl fun J _ => hpt J, Finset.sum_add_distrib, Finset.sum_ite_eq' Finset.univ (⟨k + 1, hk⟩ : Fin 8),
    if_pos (Finset.mem_univ _)]

/-- At the end of a row every block has been visited. -/
theorem row_last (I : ℕ) (g : Fin 8 → M) :
    (∑ J : Fin 8, if J.val ≤ 7 ∧ I ≤ J.val then g J else 0) = ∑ J : Fin 8, if I ≤ J.val then g J else 0 := by
  refine Finset.sum_congr rfl fun J _ => ?_
  have : J.val ≤ 7 := by have := J.isLt; omega
  by_cases h : I ≤ J.val
  · rw [if_pos ⟨this, h⟩, if_pos h]
  · rw [if_neg (fun h' : (_ ∧ I ≤ J.val) => h h'.2), if_neg h]

end Cert.PairSum
-- ==== Proof.KI.Totals.lean ====
/-
  The running totals.  After point n = 8·I + J the sum of the entries of row I's loss tile is the sum of the loss totals
  of the blocks (I, J') with J' ≤ J on or above the diagonal (I ≤ J'), and likewise the count tile.  At the last point of
  the row this is the row's whole contribution, and the array the tiles are written back into sums to the sum of the rows'.
-/
import proofs.«172198_j20495583936604_2_alg».proof.Proof.KI.TileSum
import proofs.«172198_j20495583936604_2_alg».proof.Proof.KI.Final
import proofs.«172198_j20495583936604_2_alg».proof.Proof.BlockSum

set_option maxRecDepth 16384

noncomputable section

namespace Cert.KernelIdeal.TileSum

open Cert.KernelIdeal Cert.KernelIdeal.Gen
open Idealize.ShloMosaic Idealize.ShloMosaic.TcCoe Idealize.SL.Sem
open Idealize.ShloMosaic.ValueIdx
open scoped BigOperators

open Cert.KernelIdeal.Body Cert.PairSum

variable (m : (ℓ : Loc nD τ sig) → Buf (Elt Ideal) ℓ)

/-- The loss total of the block at point `n` (zero for a number that is no point). -/
def lossBlk (c : Dev nD) (n : ℕ) : EReal :=
  if h : n < cfg0.N then blockTotal (lossTerms (maskAt m c ⟨n, h⟩) (lossAt m c ⟨n, h⟩) (absAt m c ⟨n, h⟩)) else 0
/-- The count total of the block at point `n`. -/
def cntBlk (c : Dev nD) (n : ℕ) : EReal :=
  if h : n < cfg0.N then blockTotal (cntTerms (maskAt m c ⟨n, h⟩)) else 0

theorem step_sums (c : Dev nD) (t : Fin cfg0.N) (prev : Vec Ideal S8x128 .f32 × Vec Ideal S8x128 .f32) :
    tileSum (stepT m c t prev).1 = tileSum prev.1 + lossBlk m c t.val
      ∧ tileSum (stepT m c t prev).2 = tileSum prev.2 + cntBlk m c t.val := by
  unfold stepT lossBlk cntBlk
  rw [dif_pos t.isLt, dif_pos t.isLt]
  exact ⟨tileSum_pay9 _ _ _ _, tileSum_pay10 _ _⟩

theorem zero_sums : tileSum (zeroT (F := Ideal)).1 = 0 ∧ tileSum (zeroT (F := Ideal)).2 = 0 :=
  ⟨tileSum_pay1, tileSum_pay2⟩

/-- Row n / 8's total so far: its blocks up to column n % 8 that lie on or above the diagonal. -/
def rowSoFar (g : ℕ → EReal) (n : ℕ) : EReal :=
  ∑ J : Fin 8, if J.val ≤ n % 8 ∧ n / 8 ≤ J.val then g (8 * (n / 8) + J.val) else 0

theorem rowSoFar_first (g : ℕ → EReal) (n : ℕ) (h : n % 8 = 0) : rowSoFar g n = if n = 0 then g 0 else 0 := by
  unfold rowSoFar
  rw [h, row_zero (n / 8) (fun J : Fin 8 => g (8 * (n / 8) + J.val))]
  by_cases h0 : n = 0
  · subst h0; rfl
  · rw [if_neg h0, if_neg (by omega)]

theorem rowSoFar_next (g : ℕ → EReal) (n : ℕ) (h : ¬(n + 1) % 8 = 0) :
    rowSoFar g (n + 1) = rowSoFar g n + (if (n + 1) / 8 ≤ (n + 1) % 8 then g (n + 1) else 0) := by
  unfold rowSoFar
  have e1 : (n + 1) % 8 = n % 8 + 1 := by omega
  have e2 : (n + 1) / 8 = n / 8 := by omega
  have e3 : 8 * (n / 8) + (n % 8 + 1) = n + 1 := by omega
  rw [e1, e2, row_succ (n / 8) (n % 8) (by omega) (fun J : Fin 8 => g (8 * (n / 8) + J.val))]
  dsimp only
  rw [e3]

/-! ## The recursion, unfolded one point at a time -/

theorem outsAt_zero (c : Dev nD) (hn : 0 < cfg0.N) (hc1) (hc2) :
    outsAt m c 0 hn = tilesOf (piecesA m c ⟨0, hn⟩ hc1 hc2) := rfl
theorem outsAt_succ_B (c : Dev nD) (n : ℕ) (hn : n + 1 < cfg0.N) (h1 : (n + 1) % 8 = 0) (hc1) (hc2) :
    outsAt m c (n + 1) hn = tilesOf (piecesB (F := Ideal) c ⟨n + 1, hn⟩ hc1 hc2) := (dif_pos h1).trans rfl
theorem outsAt_succ_C (c : Dev nD) (n : ℕ) (hn : n + 1 < cfg0.N) (h1 : ¬(n + 1) % 8 = 0) (h2 : (n + 1) / 8 ≤ (n + 1) % 8) (hc1) (hc2) :
    outsAt m c (n + 1) hn = tilesOf (piecesC m c ⟨n + 1, hn⟩ hc1 hc2 (outsAt m c n (Nat.lt_of_succ_lt hn))) :=
  (dif_neg h1).trans ((dif_pos h2).trans rfl)
theorem outsAt_succ_D (c : Dev nD) (n : ℕ) (hn : n + 1 < cfg0.N) (h1 : ¬(n + 1) % 8 = 0) (h2 : ¬(n + 1) / 8 ≤ (n + 1) % 8) :
    outsAt m c (n + 1) hn = outsAt m c n (Nat.lt_of_succ_lt hn) :=
  (dif_neg h1).trans ((dif_neg h2).trans rfl)

/-- THE INVARIANT: the tiles' sums after each point are the row's totals so far. -/
theorem tile_sums (c : Dev nD) : ∀ (n : ℕ) (hn : n < cfg0.N),
    tileSum (outsAt m c n hn).1 = rowSoFar (lossBlk m c) n ∧ tileSum (outsAt m c n hn).2 = rowSoFar (cntBlk m c) n
  | 0, hn => by
    have hc1 : k0_cond1 (grid0.coords ⟨0, hn⟩) = 1#1 := (hcond1 ⟨0, hn⟩).mpr (Nat.zero_mod _)
    have hc2 : k0_cond2 (grid0.coords ⟨0, hn⟩) = 1#1 := (hcond2 ⟨0, hn⟩).mpr (by show 0 / 8 ≤ 0 % 8; decide)
    rw [outsAt_zero m c hn hc1 hc2, tilesA_eq, rowSoFar_first _ 0 rfl, rowSoFar_first _ 0 rfl, if_pos rfl, if_pos rfl]
    obtain ⟨s1, s2⟩ := step_sums m c ⟨0, hn⟩ zeroT
    rw [s1, s2, zero_sums.1, zero_sums.2, zero_add, zero_add]
    exact ⟨rfl, rfl⟩
  | n + 1, hn => by
    obtain ⟨ih1, ih2⟩ := tile_sums c n (Nat.lt_of_succ_lt hn)
    have hN : n + 1 < 64 := lt_of_lt_of_eq hn (show cfg0.N = 64 from N_0)
    by_cases h1 : (n + 1) % 8 = 0
    · have hc1 : k0_cond1 (grid0.coords ⟨n + 1, hn⟩) = 1#1 := (hcond1 ⟨n + 1, hn⟩).mpr h1
      have hc2 : ¬k0_cond2 (grid0.coords ⟨n + 1, hn⟩) = 1#1 := fun h => by
        have := (hcond2 ⟨n + 1, hn⟩).mp h; dsimp only at this; omega
      rw [outsAt_succ_B m c n hn h1 hc1 hc2, tilesB_eq, rowSoFar_first _ (n + 1) h1, rowSoFar_first _ (n + 1) h1,
        if_neg (Nat.succ_ne_zero n), if_neg (Nat.succ_ne_zero n)]
      exact zero_sums
    · have hc1 : ¬k0_cond1 (grid0.coords ⟨n + 1, hn⟩) = 1#1 := fun h => h1 ((hcond1 ⟨n + 1, hn⟩).mp h)
      by_cases h2 : (n + 1) / 8 ≤ (n + 1) % 8
      · have hc2 : k0_cond2 (grid0.coords ⟨n + 1, hn⟩) = 1#1 := (hcond2 ⟨n + 1, hn⟩).mpr h2
        rw [outsAt_succ_C m c n hn h1 h2 hc1 hc2, tilesC_eq, rowSoFar_next _ n h1, rowSoFar_next _ n h1, if_pos h2, if_pos h2]
        obtain ⟨s1, s2⟩ := step_sums m c ⟨n + 1, hn⟩ (outsAt m c n (Nat.lt_of_succ_lt hn))
        rw [s1, s2, ih1, ih2]
        exact ⟨rfl, rfl⟩
      · rw [outsAt_succ_D m c n hn h1 h2, rowSoFar_next _ n h1, rowSoFar_next _ n h1, if_neg h2, if_neg h2, add_zero, add_zero]
        exact ⟨ih1, ih2⟩

/-- A row's totals: its blocks on or above the diagonal. -/
theorem rowTile_sums (c : Dev nD) (I : ℕ) (hI : I < 8) :
    tileSum (rowTile m c I hI).1 = (∑ J : Fin 8, if I ≤ J.val then lossBlk m c (8 * I + J.val) else 0)
      ∧ tileSum (rowTile m c I hI).2 = (∑ J : Fin 8, if I ≤ J.val then cntBlk m c (8 * I + J.val) else 0) := by
  unfold rowTile
  obtain ⟨h1, h2⟩ := tile_sums m c (8 * I + 7) (by rw [show cfg0.N = 64 from N_0]; omega)
  rw [h1, h2]
  unfold rowSoFar
  have e7 : (8 * I + 7) % 8 = 7 := by omega
  have eI : (8 * I + 7) / 8 = I := by omega
  rw [e7, eI, row_last I (fun J : Fin 8 => lossBlk m c (8 * I + J.val)), row_last I (fun J : Fin 8 => cntBlk m c (8 * I + J.val))]
  exact ⟨rfl, rfl⟩

/-! ## The arrays' sums -/

theorem rowTile_congr (c : Dev nD) {I I' : ℕ} (h : I = I') (hI : I < 8) (hI' : I' < 8) : rowTile m c I hI = rowTile m c I' hI' := by
  subst h; rfl

/-- Entry (8·I + r, q) of each array is entry (r, q) of row I's tile. -/
theorem G6_at (c : Dev nD) (I r : Fin 8) (q : Fin 128) :
    G6 m c (ix2 (at64 I r) q) = (rowTile m c I.val I.isLt).1 (ix2 r q) := by
  unfold G6
  have e : ((ix2 (at64 I r) q : S64x128.Idx) 0).val / 8 = I.val := by
    show (8 * I.val + r.val) / 8 = I.val
    have := r.isLt; omega
  rw [rowTile_congr m c e _ I.isLt]
  refine congrArg (rowTile m c I.val I.isLt).1 ?_
  funext a
  match a with
  | ⟨0, _⟩ => exact Fin.ext (by show (8 * I.val + r.val) % 8 = r.val; have := r.isLt; omega)
  | ⟨1, _⟩ => rfl
theorem G7_at (c : Dev nD) (I r : Fin 8) (q : Fin 128) :
    G7 m c (ix2 (at64 I r) q) = (rowTile m c I.val I.isLt).2 (ix2 r q) := by
  unfold G7
  have e : ((ix2 (at64 I r) q : S64x128.Idx) 0).val / 8 = I.val := by
    show (8 * I.val + r.val) / 8 = I.val
    have := r.isLt; omega
  rw [rowTile_congr m c e _ I.isLt]
  refine congrArg (rowTile m c I.val I.isLt).2 ?_
  funext a
  match a with
  | ⟨0, _⟩ => exact Fin.ext (by show (8 * I.val + r.val) % 8 = r.val; have := r.isLt; omega)
  | ⟨1, _⟩ => rfl

/-- Each array sums to the sum of its rows' tile sums. -/
theorem G6_sum (c : Dev nD) : ∑ i : S64x128.Idx, G6 m c i = ∑ I : Fin 8, tileSum (rowTile m c I.val I.isLt).1 := by
  rw [sum_idx2 (G6 m c), sum_at64]
  refine Finset.sum_congr rfl fun I _ => ?_
  rw [tileSum_eq]
  exact Finset.sum_congr rfl fun r _ => Finset.sum_congr rfl fun q _ => G6_at m c I r q
theorem G7_sum (c : Dev nD) : ∑ i : S64x128.Idx, G7 m c i = ∑ I : Fin 8, tileSum (rowTile m c I.val I.isLt).2 := by
  rw [sum_idx2 (G7 m c), sum_at64]
  refine Finset.sum_congr rfl fun I _ => ?_
  rw [tileSum_eq]
  exact Finset.sum_congr rfl fun r _ => Finset.sum_congr rfl fun q _ => G7_at m c I r q

/-- So the loss array sums to the blocks on or above the diagonal, and so does the count array. -/
theorem G6_total (c : Dev nD) : ∑ i : S64x128.Idx, G6 m c i
    = ∑ I : Fin 8, ∑ J : Fin 8, if I.val ≤ J.val then lossBlk m c (8 * I.val + J.val) else 0 := by
  rw [G6_sum]
  exact Finset.sum_congr rfl fun I _ => (rowTile_sums m c I.val I.isLt).1
theorem G7_total (c : Dev nD) : ∑ i : S64x128.Idx, G7 m c i
    = ∑ I : Fin 8, ∑ J : Fin 8, if I.val ≤ J.val then cntBlk m c (8 * I.val + J.val) else 0 := by
  rw [G7_sum]
  exact Finset.sum_congr rfl fun I _ => (rowTile_sums m c I.val I.isLt).2

end Cert.KernelIdeal.TileSum

end
-- ==== Proof.Ref.lean ====
/-
  The reference, pair by pair.  For rows a and columns b of the 8192 × 8192 pair matrix the reference forms
    mask(a,b)  = (a < b) ∧ (seg a = seg b) ∧ (lab a ≠ lab b),
    d(a,b)     = score a − score b,        z(a) = 1 if lab a = 1 else 0,
    loss(a,b)  = max(d,0) − d·z + log(1 + exp(−|d|)),
  sums  mask·loss  and  mask  over all pairs, and divides.  Here each stage of its program is read at the pair (a, b)
  in those terms, and a pair with b ≤ a is shown to contribute nothing.
-/
import proofs.«172198_j20495583936604_2_alg».proof.Proof.Gen.ReferenceIdeal.Read
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem
open Idealize.ShloMosaic.ValueIdx
open scoped BigOperators

variable {F : FTy → Type} [FloatOps F]

/-- The pair mask. -/
def pmask (x0 x2 : (⟨S8192, .i32⟩ : BufTy).Contents (Elt F)) (a b : Fin 8192) : BitVec 1 :=
  IntOp.andi (IntOp.andi (IntOp.cmpi .slt (BitVec.ofNat 32 a.val) (BitVec.ofNat 32 b.val))
    (IntOp.cmpi .eq (x0 (ix1 a)) (x0 (ix1 b)))) (IntOp.cmpi .ne (x2 (ix1 a)) (x2 (ix1 b)))
/-- The score difference of the pair. -/
def pdiff (x1 : (⟨S8192, .f32⟩ : BufTy).Contents (Elt F)) (a b : Fin 8192) : F .f32 :=
  FloatOps.subf (x1 (ix1 a)) (x1 (ix1 b))
/-- The row's label as a float: 1 if it is 1, else 0. -/
def plabel (x2 : (⟨S8192, .i32⟩ : BufTy).Contents (Elt F)) (a : Fin 8192) : F .f32 :=
  FloatOps.uitofp .f32 (IntOp.cmpi .eq (x2 (ix1 a)) (1#32))
/-- The pair's loss. -/
def ploss (x1 : (⟨S8192, .f32⟩ : BufTy).Contents (Elt F)) (x2 : (⟨S8192, .i32⟩ : BufTy).Contents (Elt F)) (a b : Fin 8192) : F .f32 :=
  FloatOps.addf
    (FloatOps.subf (FloatOps.maximumf (pdiff x1 a b) (FloatOps.ofBits .f32 0x00000000#32)) (FloatOps.mulf (pdiff x1 a b) (plabel x2 a)))
    (FloatOps.hostUnary .log1p (FloatOps.hostUnary .exp (FloatOps.hostNegf (FloatOps.hostAbsf (pdiff x1 a b)))))
/-- The pair's term of the loss sum, -/
def pterm (x0 : (⟨S8192, .i32⟩ : BufTy).Contents (Elt F)) (x1 : (⟨S8192, .f32⟩ : BufTy).Contents (Elt F))
    (x2 : (⟨S8192, .i32⟩ : BufTy).Contents (Elt F)) (a b : Fin 8192) : F .f32 :=
  Scalar.select (pmask x0 x2 a b) (ploss x1 x2 a b) (FloatOps.ofBits .f32 0x00000000#32)
/-- and of the count. -/
def pcnt (x0 x2 : (⟨S8192, .i32⟩ : BufTy).Contents (Elt F)) (a b : Fin 8192) : F .f32 :=
  FloatOps.uitofp .f32 (pmask x0 x2 a b)

/-! ## The program's index maps at a pair: a row operand is read at the row, a column operand at the column -/

theorem row0 (a b : Fin 8192) : idx_main_v6 (idx_main_v8 (ix2 a b)) = ix1 a :=
  funext fun d => by match d with | ⟨0, _⟩ => rfl
theorem col0 (a b : Fin 8192) : idx_main_v7 (idx_main_v9 (ix2 a b)) = ix1 b :=
  funext fun d => by match d with | ⟨0, _⟩ => rfl
theorem row2 (a b : Fin 8192) : idx_main_v11 (idx_main_v13 (ix2 a b)) = ix1 a :=
  funext fun d => by match d with | ⟨0, _⟩ => rfl
theorem col2 (a b : Fin 8192) : idx_main_v12 (idx_main_v14 (ix2 a b)) = ix1 b :=
  funext fun d => by match d with | ⟨0, _⟩ => rfl
theorem row1 (a b : Fin 8192) : idx_main_v18 (idx_main_v20 (ix2 a b)) = ix1 a :=
  funext fun d => by match d with | ⟨0, _⟩ => rfl
theorem col1 (a b : Fin 8192) : idx_main_v19 (idx_main_v21 (ix2 a b)) = ix1 b :=
  funext fun d => by match d with | ⟨0, _⟩ => rfl
theorem rowz (a b : Fin 8192) : idx_main_v23 (idx_main_v29 (ix2 a b)) = ix1 a :=
  funext fun d => by match d with | ⟨0, _⟩ => rfl

/-! ## The stages at a pair -/

theorem v17_at (x0 x2 : (⟨S8192, .i32⟩ : BufTy).Contents (Elt F)) (a b : Fin 8192) :
    val_main_v17 (F := F) x0 x2 (ix2 a b) = pmask x0 x2 a b := by
  simp only [val_main_v39_apply, val_main_v37_apply, val_main_v36_apply, val_main_v35_apply, val_main_v34_apply, val_main_v33_apply, val_main_v32_apply,
    val_main_v31_apply, val_main_v30_apply, val_main_v29_apply, val_main_v28_apply, val_main_v27_apply, val_main_v26_apply, val_main_v25_apply,
    val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply,
    val_main_v10_apply, val_main_v9_apply, val_main_v8_apply, val_main_v7_apply, val_main_v6_apply, val_main_v5_apply, val_main_v4_apply,
    val_main_v3_apply, val_main_v2_apply, val_main_v1_apply, val_main_v0_apply, val_main_c_apply, val_main_cst_apply,
    val_main_call0_v1_apply, val_main_call0_v0_apply, val_main_cst_1_apply]
  rw [row0, col0, row2, col2]
  rfl

theorem v39_at (x0 : (⟨S8192, .i32⟩ : BufTy).Contents (Elt F)) (x1 : (⟨S8192, .f32⟩ : BufTy).Contents (Elt F))
    (x2 : (⟨S8192, .i32⟩ : BufTy).Contents (Elt F)) (a b : Fin 8192) :
    val_main_v39 (F := F) x0 x1 x2 (ix2 a b) = pterm x0 x1 x2 a b := by
  simp only [val_main_v39_apply, val_main_v37_apply, val_main_v36_apply, val_main_v35_apply, val_main_v34_apply, val_main_v33_apply, val_main_v32_apply,
    val_main_v31_apply, val_main_v30_apply, val_main_v29_apply, val_main_v28_apply, val_main_v27_apply, val_main_v26_apply, val_main_v25_apply,
    val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply,
    val_main_v10_apply, val_main_v9_apply, val_main_v8_apply, val_main_v7_apply, val_main_v6_apply, val_main_v5_apply, val_main_v4_apply,
    val_main_v3_apply, val_main_v2_apply, val_main_v1_apply, val_main_v0_apply, val_main_c_apply, val_main_cst_apply,
    val_main_call0_v1_apply, val_main_call0_v0_apply, val_main_cst_1_apply]
  rw [row0, col0, row2, col2, row1, col1, rowz]
  rfl

theorem v37_at (x0 x2 : (⟨S8192, .i32⟩ : BufTy).Contents (Elt F)) (a b : Fin 8192) :
    val_main_v37 (F := F) x0 x2 (ix2 a b) = pcnt x0 x2 a b := by
  rw [val_main_v37_apply, v17_at]
  rfl

/-! ## Below the diagonal nothing is counted -/

/-- Signed comparison of two small naturals as 32-bit words is their comparison. -/
theorem slt_small (a b : ℕ) (ha : a < 8192) (hb : b < 8192) :
    (BitVec.ofNat 32 a).slt (BitVec.ofNat 32 b) = decide (a < b) := by
  have ta : (BitVec.ofNat 32 a).toInt = (a : ℤ) := by
    rw [BitVec.toInt_eq_toNat_cond, BitVec.toNat_ofNat, Nat.mod_eq_of_lt (by omega : a < 2 ^ 32), if_pos (by omega)]
  have tb : (BitVec.ofNat 32 b).toInt = (b : ℤ) := by
    rw [BitVec.toInt_eq_toNat_cond, BitVec.toNat_ofNat, Nat.mod_eq_of_lt (by omega : b < 2 ^ 32), if_pos (by omega)]
  show decide ((BitVec.ofNat 32 a).toInt < (BitVec.ofNat 32 b).toInt) = decide (a < b)
  rw [ta, tb]
  simp

theorem pmask_below (x0 x2 : (⟨S8192, .i32⟩ : BufTy).Contents (Elt F)) (a b : Fin 8192) (h : b.val ≤ a.val) :
    pmask x0 x2 a b = 0#1 := by
  unfold pmask
  have hs : IntOp.cmpi .slt (BitVec.ofNat 32 a.val) (BitVec.ofNat 32 b.val) = 0#1 := by
    show BitVec.ofBool ((BitVec.ofNat 32 a.val).slt (BitVec.ofNat 32 b.val)) = 0#1
    rw [slt_small a.val b.val a.isLt b.isLt, decide_eq_false (by omega)]
    rfl
  rw [hs]
  show (0#1 &&& _) &&& _ = 0#1
  rw [BitVec.zero_and, BitVec.zero_and]

theorem pterm_below (x0 : (⟨S8192, .i32⟩ : BufTy).Contents (Elt Ideal)) (x1 : (⟨S8192, .f32⟩ : BufTy).Contents (Elt Ideal))
    (x2 : (⟨S8192, .i32⟩ : BufTy).Contents (Elt Ideal)) (a b : Fin 8192) (h : b.val ≤ a.val) :
    pterm (F := Ideal) x0 x1 x2 a b = 0 := by
  unfold pterm
  rw [pmask_below x0 x2 a b h, select_zero, Ideal.ofBits_def, Ideal.ofBits_zero_f32]

theorem pcnt_below (x0 x2 : (⟨S8192, .i32⟩ : BufTy).Contents (Elt Ideal)) (a b : Fin 8192) (h : b.val ≤ a.val) :
    pcnt (F := Ideal) x0 x2 a b = 0 := by
  unfold pcnt
  rw [pmask_below x0 x2 a b h]
  show (((0#1 : BitVec 1).toNat : ℝ) : EReal) = 0
  simp

/-! ## The two sums over all pairs -/

theorem loss_sum (x0 : (⟨S8192, .i32⟩ : BufTy).Contents (Elt Ideal)) (x1 : (⟨S8192, .f32⟩ : BufTy).Contents (Elt Ideal))
    (x2 : (⟨S8192, .i32⟩ : BufTy).Contents (Elt Ideal)) :
    ∑ j : S8192x8192.Idx, val_main_v39 (F := Ideal) x0 x1 x2 j = ∑ a : Fin 8192, ∑ b : Fin 8192, pterm (F := Ideal) x0 x1 x2 a b := by
  rw [sum_idx2 (val_main_v39 (F := Ideal) x0 x1 x2)]
  exact Finset.sum_congr rfl fun a _ => Finset.sum_congr rfl fun b _ => v39_at x0 x1 x2 a b

theorem cnt_sum (x0 x2 : (⟨S8192, .i32⟩ : BufTy).Contents (Elt Ideal)) :
    ∑ j : S8192x8192.Idx, val_main_v37 (F := Ideal) x0 x2 j = ∑ a : Fin 8192, ∑ b : Fin 8192, pcnt (F := Ideal) x0 x2 a b := by
  rw [sum_idx2 (val_main_v37 (F := Ideal) x0 x2)]
  exact Finset.sum_congr rfl fun a _ => Finset.sum_congr rfl fun b _ => v37_at x0 x2 a b

end Cert.ReferenceIdeal.RefValue

end
-- ==== Proof.KI.Pairs.lean ====
/-
  A block's terms are the reference's pair terms.  Entry (p, q) of the block at point (i, j) stands for the pair
  (1024·i + p, 1024·j + q): the kernel rebuilds those two indices as 32-bit words from the block's coordinates and
  position counters, reads the scores, segments and labels of that row and that column from the block's six input
  vectors, and computes the same mask and the same loss as the reference does at that pair.  Two spellings differ and
  agree as extended reals: the kernel writes −|d| as 0 − |d|, and it turns a one-bit flag into a float by widening it to
  32 bits and converting signed, where the reference converts the bit unsigned.
-/
import proofs.«172198_j20495583936604_2_alg».proof.Proof.KI.Blocks
import proofs.«172198_j20495583936604_2_alg».proof.Proof.KI.Totals
import proofs.«172198_j20495583936604_2_alg».proof.Proof.Ref

set_option maxRecDepth 16384

noncomputable section

namespace Cert.KernelIdeal.Pairs

open Cert.KernelIdeal Cert.KernelIdeal.Gen
open Idealize.ShloMosaic Idealize.ShloMosaic.TcCoe Idealize.SL.Sem
open Idealize.ShloMosaic.ValueIdx
open scoped BigOperators

open Cert.KernelIdeal.Body Cert.KernelIdeal.TileSum Cert.PairSum Cert.ReferenceIdeal.RefValue

variable (m : (ℓ : Loc nD τ sig) → Buf (Elt Ideal) ℓ)

/-- The three argument vectors on core `c`: segments, scores, labels. -/
abbrev segs (c : Dev nD) := m ((c : Thread nD τ).loc main_arg0)
abbrev scores (c : Dev nD) := m ((c : Thread nD τ).loc main_arg1)
abbrev labels (c : Dev nD) := m ((c : Thread nD τ).loc main_arg2)

/-! ## Layout and words -/

/-- A [1024,1] vector broadcast over the block reads its row's entry; -/
theorem bcast_col {α : Type} (v : S1024x1.Idx → α) (h : S1024x1.Broadcasts S1024x1024) (p q : Fin 1024) :
    broadcastTo S1024x1024 v h (ix2 p q) = v (ix2 p (0 : Fin 1)) :=
  broadcastTo_apply v h (ix2 p q) (ix2 p (0 : Fin 1)) (fun a => by match a with | ⟨0, _⟩ => rfl | ⟨1, _⟩ => rfl)
/-- a [1,1024] vector its column's. -/
theorem bcast_row {α : Type} (v : S1x1024.Idx → α) (h : S1x1024.Broadcasts S1024x1024) (p q : Fin 1024) :
    broadcastTo S1024x1024 v h (ix2 p q) = v (ix2 (0 : Fin 1) q) :=
  broadcastTo_apply v h (ix2 p q) (ix2 (0 : Fin 1) q) (fun a => by match a with | ⟨0, _⟩ => rfl | ⟨1, _⟩ => rfl)

/-- The grid coordinates of point `t`: its row and column block. -/
theorem hco : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- Block coordinate times 1024 plus position, as 32-bit words, is the word of the global index. -/
theorem word_ix (I p : ℕ) :
    IntOp.addi (Scalar.muli (BitVec.ofNat 32 I) 1024#32) (BitVec.ofNat 32 p) = BitVec.ofNat 32 (1024 * I + p) := by
  show BitVec.ofNat 32 I * 1024#32 + BitVec.ofNat 32 p = _
  rw [show (1024#32 : BitVec 32) = BitVec.ofNat 32 1024 from rfl, ← BitVec.ofNat_mul, ← BitVec.ofNat_add, Nat.mul_comm]

/-- A one-bit flag widened to 32 bits and converted signed is the flag converted unsigned. -/
theorem flag_eq (b : BitVec 1) : FloatOps.sitofp (F := Ideal) .f32 (b.setWidth 32) = FloatOps.uitofp (F := Ideal) .f32 b := by
  have h : ∀ b : BitVec 1, (b.setWidth 32).toInt = (b.toNat : ℤ) := by decide
  show (((b.setWidth 32).toInt : ℝ) : EReal) = ((b.toNat : ℝ) : EReal)
  rw [h b]
  simp

/-! ## The block's entries -/

theorem mask_at (c : Dev nD) (t : Fin cfg0.N) (p q : Fin 1024) :
    maskAt m c t (ix2 p q) = pmask (F := Ideal) (segs m c) (labels m c) (rowIx t p) (colIx t q) := by
  unfold maskAt k0_pay5 k0_pay3
  simp only [shapeCast_self, andi, cmpi, addi, broadcast, bcast_col, bcast_row, blk2_at, blk3_at, blk4_at, blk5_at,
    (hco t).1, (hco t).2]
  rw [iota_single_apply .tc S1024x1 32 (0 : Fin 2) iota_S1024x1_d0_w32 (ix2 p (0 : Fin 1)),
    iota_single_apply .tc S1x1024 32 (1 : Fin 2) iota_S1x1024_d1_w32 (ix2 (0 : Fin 1) q), word_ix, word_ix]
  rfl

/-- The score difference of the pair. -/
theorem diff_at (c : Dev nD) (t : Fin cfg0.N) (p q : Fin 1024) :
    k0_pay4 (F := Ideal) (iblk m c 0 t) (iblk m c 1 t) (ix2 p q) = pdiff (F := Ideal) (scores m c) (rowIx t p) (colIx t q) := by
  unfold k0_pay4
  simp only [shapeCast_self, subf, bcast_col, bcast_row, blk0_at, blk1_at]
  rfl

theorem loss_at (c : Dev nD) (t : Fin cfg0.N) (p q : Fin 1024) :
    lossTerms (maskAt m c t) (lossAt m c t) (absAt m c t) (ix2 p q)
      = pterm (F := Ideal) (segs m c) (scores m c) (labels m c) (rowIx t p) (colIx t q) := by
  unfold lossTerms pterm
  rw [select_apply, mask_at]
  refine congrArg₂ (Scalar.select _) ?_ rfl
  unfold lossAt absAt k0_pay6 k0_pay7 k0_pay3 ploss plabel
  simp only [shapeCast_self, addf, subf, mulf, maximumf, absf, exp, log1p, sitofp, extui, cmpi, broadcast, bcast_col, bcast_row,
    diff_at, blk4_at, flag_eq]
  simp only [Ideal.log1p_def, Ideal.exp_def, Ideal.hostUnary_log1p_def, Ideal.hostUnary_exp_def, Ideal.hostNegf_def,
    Ideal.hostAbsf_def, Ideal.subf_def, Ideal.negf_def, Ideal.ofBits_def, Ideal.ofBits_zero_f32, zero_sub]

theorem cnt_at (c : Dev nD) (t : Fin cfg0.N) (p q : Fin 1024) :
    cntTerms (maskAt m c t) (ix2 p q) = pcnt (F := Ideal) (segs m c) (labels m c) (rowIx t p) (colIx t q) := by
  unfold cntTerms pcnt
  simp only [sitofp, extui, mask_at, flag_eq]

end Cert.KernelIdeal.Pairs

end
-- ==== Proof.KI.Tail.lean ====
/-
  After the region.  The host sums each of the two arrays from zero over all 64 × 128 entries and divides the loss
  sum by the count sum.  The arrays it reads are the ones the region leaves, so the program's result is that
  function of the two final arrays.
-/
import proofs.«172198_j20495583936604_2_alg».proof.Proof.KI.Final
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host's tail: each array summed from zero, then the quotient. -/
def tail (a6 a7 : FVec F S64x128 .f32) : FVec F S_ .f32 :=
  Host.divf (F := F) (Host.reduceAdd (F := F) a6 (constant (F := F) S_ .f32 0x00000000#32) reducesTo_S64x128_S_d0_1 h_S_)
    (Host.reduceAdd (F := F) a7 (constant (F := F) S_ .f32 0x00000000#32) reducesTo_S64x128_S_d0_1 h_S_)

/-- The result buffer after the host's lines: the tail of the two arrays as the region leaves them. -/
theorem result_eq (c : Dev nD) :
    Pipeline.afterTail₀ cfgs (dats m) 0 (V0 m) [hostOps1] c main_v9 = tail (G6 m c) (G7 m c) := by
  unfold Pipeline.afterTail₀
  show StableHlo.after hostOps1 _ (Proc.devRef .tc main_v9) = _
  after_results
  have e6 := (Pipeline.withArrays_arr spec0 launch0.win.arr_inj c (V0 m c) (fun w => (dats m 0 c).arrAt w (cfgs 0).N) 6).trans (final6 m c)
  have e7 := (Pipeline.withArrays_arr spec0 launch0.win.arr_inj c (V0 m c) (fun w => (dats m 0 c).arrAt w (cfgs 0).N) 7).trans (final7 m c)
  unfold tail
  exact congrArg₂ (fun (a b : FVec F S64x128 .f32) =>
    Host.divf (F := F) (Host.reduceAdd (F := F) a (constant (F := F) S_ .f32 0x00000000#32) reducesTo_S64x128_S_d0_1 h_S_)
      (Host.reduceAdd (F := F) b (constant (F := F) S_ .f32 0x00000000#32) reducesTo_S64x128_S_d0_1 h_S_)) e6 e7

/-- The run, read: the result at the tail of the two arrays, the three arguments as they began. -/
theorem run_value : θ_run defs (onTc (τ := τ) (main (F := F))) ⟨m, fun _ => 0, ρ⟩ (fun r => ∀ c : Dev nD,
      r.2.mem ((c.tc : Thread nD τ).loc main_v9) = tail (G6 m c) (G7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Body

end
-- ==== Proof.KI.Value.lean ====
/-
  The kernel's result is the reference's.  The loss array sums to the loss totals of the blocks on or above the
  diagonal; each block's total is the sum of the reference's pair terms over the block; the blocks below the diagonal
  hold only pairs with row ≥ column, whose terms vanish; so the loss array sums to the reference's sum over all pairs,
  and likewise the count array.  Both programs then add that sum to zero and divide the two.
-/
import proofs.«172198_j20495583936604_2_alg».proof.Proof.KI.Pairs
import proofs.«172198_j20495583936604_2_alg».proof.Proof.KI.Tail

set_option maxRecDepth 16384

noncomputable section

namespace Cert.KernelIdeal.Pairs

open Cert.KernelIdeal Cert.KernelIdeal.Gen
open Idealize.ShloMosaic Idealize.ShloMosaic.TcCoe Idealize.SL.Sem
open Idealize.ShloMosaic.ValueIdx
open scoped BigOperators

open Cert.KernelIdeal.Body Cert.KernelIdeal.TileSum Cert.PairSum Cert.ReferenceIdeal.RefValue
open Cert.ReferenceIdeal.Read (val_main_v37 val_main_v39 val_main_v41 val_main_v38_apply val_main_v40_apply val_main_v41_apply)

variable (m : (ℓ : Loc nD τ sig) → Buf (Elt Ideal) ℓ)

/-- A block's loss total is the sum of the reference's pair terms over the block, -/
theorem lossBlk_eq (c : Dev nD) (I J : Fin 8) :
    lossBlk m c (8 * I.val + J.val)
      = ∑ p : Fin 1024, ∑ q : Fin 1024, pterm (F := Ideal) (segs m c) (scores m c) (labels m c) (at8 I p) (at8 J q) := by
  have h : 8 * I.val + J.val < cfg0.N := by rw [show cfg0.N = 64 from N_0]; omega
  unfold lossBlk
  rw [dif_pos h]
  unfold blockTotal
  refine Finset.sum_congr rfl fun p _ => Finset.sum_congr rfl fun q _ => ?_
  rw [loss_at]
  refine congrArg₂ (pterm (F := Ideal) (segs m c) (scores m c) (labels m c)) (Fin.ext ?_) (Fin.ext ?_)
  · show 1024 * ((8 * I.val + J.val) / 8) + p.val = 1024 * I.val + p.val
    omega
  · show 1024 * ((8 * I.val + J.val) % 8) + q.val = 1024 * J.val + q.val
    omega

/-- and its count total of the reference's pair counts. -/
theorem cntBlk_eq (c : Dev nD) (I J : Fin 8) :
    cntBlk m c (8 * I.val + J.val)
      = ∑ p : Fin 1024, ∑ q : Fin 1024, pcnt (F := Ideal) (segs m c) (labels m c) (at8 I p) (at8 J q) := by
  have h : 8 * I.val + J.val < cfg0.N := by rw [show cfg0.N = 64 from N_0]; omega
  unfold cntBlk
  rw [dif_pos h]
  unfold blockTotal
  refine Finset.sum_congr rfl fun p _ => Finset.sum_congr rfl fun q _ => ?_
  rw [cnt_at]
  refine congrArg₂ (pcnt (F := Ideal) (segs m c) (labels m c)) (Fin.ext ?_) (Fin.ext ?_)
  · show 1024 * ((8 * I.val + J.val) / 8) + p.val = 1024 * I.val + p.val
    omega
  · show 1024 * ((8 * I.val + J.val) % 8) + q.val = 1024 * J.val + q.val
    omega

/-- The loss array sums to the reference's loss sum over all pairs, -/
theorem loss_total (c : Dev nD) :
    ∑ i : S64x128.Idx, G6 m c i
      = ∑ j : Cert.ReferenceIdeal.S8192x8192.Idx, val_main_v39 (F := Ideal) (segs m c) (scores m c) (labels m c) j := by
  rw [G6_total, loss_sum, sum_pairs (pterm (F := Ideal) (segs m c) (scores m c) (labels m c))
    (fun a b h => pterm_below (segs m c) (scores m c) (labels m c) a b h)]
  refine Finset.sum_congr rfl fun I _ => Finset.sum_congr rfl fun J _ => ?_
  by_cases h : I.val ≤ J.val
  · rw [if_pos h, if_pos h, lossBlk_eq]
  · rw [if_neg h, if_neg h]

/-- and the count array to its count. -/
theorem cnt_total (c : Dev nD) :
    ∑ i : S64x128.Idx, G7 m c i
      = ∑ j : Cert.ReferenceIdeal.S8192x8192.Idx, val_main_v37 (F := Ideal) (segs m c) (labels m c) j := by
  rw [G7_total, cnt_sum, sum_pairs (pcnt (F := Ideal) (segs m c) (labels m c))
    (fun a b h => pcnt_below (segs m c) (labels m c) a b h)]
  refine Finset.sum_congr rfl fun I _ => Finset.sum_congr rfl fun J _ => ?_
  by_cases h : I.val ≤ J.val
  · rw [if_pos h, if_pos h, cntBlk_eq]
  · rw [if_neg h, if_neg h]

/-- The host's tail at the ideal instance: zero plus each array's sum, then the quotient. -/
theorem tail_apply (a6 a7 : FVec Ideal S64x128 .f32) (i : S_.Idx) :
    tail (F := Ideal) a6 a7 i
      = FloatOps.hostDivf (Ideal.ofBits .f32 0x00000000#32 + ∑ j : S64x128.Idx, a6 j) (Ideal.ofBits .f32 0x00000000#32 + ∑ j : S64x128.Idx, a7 j) := by
  unfold tail
  show FloatOps.hostDivf (Host.reduceAdd (F := Ideal) a6 _ reducesTo_S64x128_S_d0_1 h_S_ i) (Host.reduceAdd (F := Ideal) a7 _ reducesTo_S64x128_S_d0_1 h_S_ i) = _
  simp only [Host.reduceAdd, Ideal.hostReduceAdd_def]
  rw [Ideal.hostReduceAdd_total reducesTo_S64x128_S_d0_1 (fun b => b.elim0) a6 _ i,
    Ideal.hostReduceAdd_total reducesTo_S64x128_S_d0_1 (fun b => b.elim0) a7 _ i]
  rfl

/-- THE BRIDGE: the kernel's result is the reference's last stage of the same three argument vectors. -/
theorem value_eq (c : Dev nD) :
    tail (F := Ideal) (G6 m c) (G7 m c) = val_main_v41 (F := Ideal) (segs m c) (scores m c) (labels m c) := by
  funext i
  rw [tail_apply, val_main_v41_apply, val_main_v40_apply, val_main_v38_apply, loss_total, cnt_total]
  rfl

end Cert.KernelIdeal.Pairs

end
-- ==== Proof.lean ====
/-
  A pairwise ranking loss over 8192 items, computed two ways.

  Each item has a score, a segment and a 0/1 label.  A pair (a, b) counts when a < b, the two items lie in one
  segment and their labels differ; its loss is  max(d,0) − d·z + log(1 + exp(−|d|))  with d the score difference and z
  the first item's label.  The result is the sum of the counted pairs' losses divided by their number.

  The reference forms the whole 8192 × 8192 pair matrix, masks it, sums it and divides.

  The kernel cuts the matrix into 8 × 8 blocks of 1024 × 1024 and visits them row by row.  It skips every block
  strictly below the diagonal — such a block holds only pairs with a ≥ b, none of which counts.  For each remaining block
  it forms the block's loss total and pair count and adds them into entry (0,0) of two small tiles kept per block row,
  which start at zero when the row starts and are written out when it ends; afterwards the host adds up all the tiles'
  entries and divides.

  Over the extended reals addition is commutative and associative, so the regrouping by blocks changes nothing, the
  skipped blocks contribute zero, and the tiles' other entries stay zero.  Both programs therefore divide the same
  loss sum by the same count, whatever the inputs.  The three frame claims say that each program runs to the end
  without a fault and leaves its three argument arrays as they were; the idealized kernel is the kernel's own text read
  over the extended reals, with nothing rewritten.
-/
import proofs.«172198_j20495583936604_2_alg».proof.Defs
import proofs.«172198_j20495583936604_2_alg».proof.Proof.Gen.Kernel
import proofs.«172198_j20495583936604_2_alg».proof.Proof.Gen.KernelIdeal
import proofs.«172198_j20495583936604_2_alg».proof.Proof.Gen.ReferenceIdeal
import proofs.«172198_j20495583936604_2_alg».proof.Proof.Gen.Pre_finite_inputs
import proofs.«172198_j20495583936604_2_alg».proof.Proof.Gen.ReferenceIdeal.Run
import proofs.«172198_j20495583936604_2_alg».proof.Proof.Gen.ReferenceIdeal.Read
import proofs.«172198_j20495583936604_2_alg».proof.Proof.K.Oblig
import proofs.«172198_j20495583936604_2_alg».proof.Proof.KI.Value
import Idealize.ShloMosaic.Adequacy
import Idealize.ShloMosaic.Init

noncomputable section

namespace Cert.Proof

open Idealize.ShloMosaic Idealize.SL.Sem

/-- The kernel as printed runs to the end and keeps its arguments. -/
theorem frame_k : Cert.frame_Kernel := fun m ρ _ => Cert.Kernel.Body.frame m ρ

/-- So does its reading over the extended reals. -/
theorem frame_ki : Cert.frame_KernelIdeal := fun m ρ _ => Cert.KernelIdeal.Body.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From arguments that agree, the kernel ends with the host's quotient of the two tile arrays' sums and the reference
    with the quotient of its two whole-matrix sums: the same extended real. -/
theorem algebraic : Cert.algebraic_KernelIdeal_ReferenceIdeal := by
  intro m ρ m' ρ' _ hagree
  refine ⟨fun c => Cert.KernelIdeal.Body.tail (Cert.KernelIdeal.Body.G6 m c) (Cert.KernelIdeal.Body.G7 m c),
    Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, (hagree c).1, (hagree c).2.1, (hagree c).2.2]
  exact (Cert.KernelIdeal.Pairs.value_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
